-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S26x100001x16 : Shape := ⟨3, ![26, 100001, 16]⟩
abbrev S26x100001 : Shape := ⟨2, ![26, 100001]⟩
abbrev S13 : Shape := ⟨1, ![13]⟩
abbrev S1 : Shape := ⟨1, ![1]⟩
abbrev S429 : Shape := ⟨1, ![429]⟩
abbrev S128x429 : Shape := ⟨2, ![128, 429]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100001x16 : S_.BroadcastsInDim S26x100001x16 (![] : Fin 0 → Fin S26x100001x16.rank)
  reducesTo_S26x100001x16_S_d0_1_2 : S26x100001x16.ReducesTo [0, 1, 2] S_
  bcast_S_S26x100001 : S_.BroadcastsInDim S26x100001 (![] : Fin 0 → Fin S26x100001.rank)
  reducesTo_S26x100001_S_d0_1 : S26x100001.ReducesTo [0, 1] S_
  bcast_S_S13 : S_.BroadcastsInDim S13 (![] : Fin 0 → Fin S13.rank)
  reducesTo_S13_S_d0 : S13.ReducesTo [0] S_
  bcast_S_S1 : S_.BroadcastsInDim S1 (![] : Fin 0 → Fin S1.rank)
  reducesTo_S1_S_d0 : S1.ReducesTo [0] S_
  bcast_S_S429 : S_.BroadcastsInDim S429 (![] : Fin 0 → Fin S429.rank)
  reducesTo_S429_S_d0 : S429.ReducesTo [0] S_
  bcast_S_S128x429 : S_.BroadcastsInDim S128x429 (![] : Fin 0 → Fin S128x429.rank)
  reducesTo_S128x429_S_d0_1 : S128x429.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part6 {F : FTy → Type} [FloatOps F] (main_arg22 : FVec F S1x64 .f32) (main_arg23 : FVec F S1 .f32) (main_arg24 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S1x64 .f32 := Host.absf main_arg22
  let main_cst_40 : FVec F S_ .f32 := constant S_ .f32 0x7F800000#32
  let main_v105 : FVec F S1x64 .f32 := broadcastInDim S1x64 ![] bcast_S_S1x64 main_cst_40
  let main_v106 : IVec S1x64 1 := cmpf .olt main_v104 main_v105
  let main_c_41 : IVec S_ 1 := constantI S_ 1 1#1
  let main_v107 : IVec S_ 1 := (fun x v => Host.reduce IntOp.andi x v reducesTo_S1x64_S_d0_1 h_S_) main_v106 main_c_41
  let main_v108 : IVec S_ 1 := andi main_v103 main_v107
  let main_v109 : FVec F S1 .f32 := Host.absf main_arg23
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S1 .f32 := Host.absf main_arg24
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg19 : FVec F S64 .f32) (main_arg20 : FVec F S64 .f32) (main_arg21 : FVec F S64 .f32) (main_arg22 : FVec F S1x64 .f32) (main_arg23 : FVec F S1 .f32) (main_arg24 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S128 .f32) (main_arg16 : FVec F S64x128 .f32) (main_arg17 : FVec F S64 .f32) (main_arg18 : FVec F S64 .f32) (main_arg19 : FVec F S64 .f32) (main_arg20 : FVec F S64 .f32) (main_arg21 : FVec F S64 .f32) (main_arg22 : FVec F S1x64 .f32) (main_arg23 : FVec F S1 .f32) (main_arg24 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg16
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64 .f32) (main_arg19 : FVec F S64 .f32) (main_arg20 : FVec F S64 .f32) (main_arg21 : FVec F S64 .f32) (main_arg22 : FVec F S1x64 .f32) (main_arg23 : FVec F S1 .f32) (main_arg24 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S429 .f32) (main_arg9 : FVec F S429 .f32) (main_arg10 : FVec F S128x429 .f32) (main_arg11 : FVec F S128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64 .f32) (main_arg19 : FVec F S64 .f32) (main_arg20 : FVec F S64 .f32) (main_arg21 : FVec F S64 .f32) (main_arg22 : FVec F S1x64 .f32) (main_arg23 : FVec F S1 .f32) (main_arg24 : FVec F S1 .f32) (main_v33 : IVec S_ 1) : IVec S_ 1 :=
  let main_v34 : FVec F S429 .f32 := Host.absf main_arg8
  let main_cst_12 : FVec F S_ .f32 := constant S_ .f32 0x7F800000#32
  let main_v35 : FVec F S429 .f32 := broadcastInDim S429 ![] bcast_S_S429 main_cst_12
  let main_v36 : IVec S429 1 := cmpf .olt main_v34 main_v35
  let main_c_13 : IVec S_ 1 := constantI S_ 1 1#1
  let main_v37 : IVec S_ 1 := (fun x v => Host.reduce IntOp.andi x v reducesTo_S429_S_d0 h_S_) main_v36 main_c_13
  let main_v38 : IVec S_ 1 := andi main_v33 main_v37
  let main_v39 : FVec F S429 .f32 := Host.absf main_arg9
  let main_cst_14 : FVec F S_ .f32 := constant S_ .f32 0x7F800000#32
  let main_v40 : FVec F S429 .f32 := broadcastInDim S429 ![] bcast_S_S429 main_cst_14
  let main_v41 : IVec S429 1 := cmpf .olt main_v39 main_v40
  let main_c_15 : IVec S_ 1 := constantI S_ 1 1#1
  let main_v42 : IVec S_ 1 := (fun x v => Host.reduce IntOp.andi x v reducesTo_S429_S_d0 h_S_) main_v41 main_c_15
  let main_v43 : IVec S_ 1 := andi main_v38 main_v42
  let main_v44 : FVec F S128x429 .f32 := Host.absf main_arg10
  let main_cst_16 : FVec F S_ .f32 := constant S_ .f32 0x7F800000#32
  let main_v45 : FVec F S128x429 .f32 := broadcastInDim S128x429 ![] bcast_S_S128x429 main_cst_16
  let main_v46 : IVec S128x429 1 := cmpf .olt main_v44 main_v45
  let main_c_17 : IVec S_ 1 := constantI S_ 1 1#1
  let main_v47 : IVec S_ 1 := (fun x v => Host.reduce IntOp.andi x v reducesTo_S128x429_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S1 .f32) (main_arg6 : FVec F S429 .f32) (main_arg7 : FVec F S429 .f32) (main_arg8 : FVec F S429 .f32) (main_arg9 : FVec F S429 .f32) (main_arg10 : FVec F S128x429 .f32) (main_arg11 : FVec F S128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64 .f32) (main_arg19 : FVec F S64 .f32) (main_arg20 : FVec F S64 .f32) (main_arg21 : FVec F S64 .f32) (main_arg22 : FVec F S1x64 .f32) (main_arg23 : FVec F S1 .f32) (main_arg24 : FVec F S1 .f32) (main_v13 : IVec S_ 1) (main_v16 : IVec S13 1) : IVec S_ 1 :=
  let main_c_5 : IVec S_ 1 := constantI S_ 1 1#1
  let main_v17 : IVec S_ 1 := (fun x v => Host.reduce IntOp.andi x v reducesTo_S13_S_d0 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S429 .f32 := Host.absf main_arg6
  let main_cst_8 : FVec F S_ .f32 := constant S_ .f32 0x7F800000#32
  let main_v25 : FVec F S429 .f32 := broadcastInDim S429 ![] bcast_S_S429 main_cst_8
  let main_v26 : IVec S429 1 := cmpf .olt main_v24 main_v25
  let main_c_9 : IVec S_ 1 := constantI S_ 1 1#1
  let main_v27 : IVec S_ 1 := (fun x v => Host.reduce IntOp.andi x v reducesTo_S429_S_d0 h_S_) main_v26 main_c_9
  let main_v28 : IVec S_ 1 := andi main_v23 main_v27
  let main_v29 : FVec F S429 .f32 := Host.absf main_arg7
  let main_cst_10 : FVec F S_ .f32 := constant S_ .f32 0x7F800000#32
  let main_v30 : FVec F S429 .f32 := broadcastInDim S429 ![] bcast_S_S429 main_cst_10
  let main_v31 : IVec S429 1 := cmpf .olt main_v29 main_v30
  let main_c_11 : IVec S_ 1 := constantI S_ 1 1#1
  let main_v32 : IVec S_ 1 := (fun x v => Host.reduce IntOp.andi x v reducesTo_S429_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : IVec S16384x26 32) (main_arg1 : FVec F S16384x13 .f32) (main_arg2 : FVec F S26x100001x16 .f32) (main_arg3 : FVec F S26x100001 .f32) (main_arg4 : FVec F S13 .f32) (main_arg5 : FVec F S1 .f32) (main_arg6 : FVec F S429 .f32) (main_arg7 : FVec F S429 .f32) (main_arg8 : FVec F S429 .f32) (main_arg9 : FVec F S429 .f32) (main_arg10 : FVec F S128x429 .f32) (main_arg11 : FVec F S128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64 .f32) (main_arg19 : FVec F S64 .f32) (main_arg20 : FVec F S64 .f32) (main_arg21 : FVec F S64 .f32) (main_arg22 : FVec F S1x64 .f32) (main_arg23 : FVec F S1 .f32) (main_arg24 : FVec F S1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100001x16 .f32 := Host.absf main_arg2
  let main_cst_0 : FVec F S_ .f32 := constant S_ .f32 0x7F800000#32
  let main_v5 : FVec F S26x100001x16 .f32 := broadcastInDim S26x100001x16 ![] bcast_S_S26x100001x16 main_cst_0
  let main_v6 : IVec S26x100001x16 1 := cmpf .olt main_v4 main_v5
  let main_c_1 : IVec S_ 1 := constantI S_ 1 1#1
  let main_v7 : IVec S_ 1 := (fun x v => Host.reduce IntOp.andi x v reducesTo_S26x100001x16_S_d0_1_2 h_S_) main_v6 main_c_1
  let main_v8 : IVec S_ 1 := andi main_v3 main_v7
  let main_v9 : FVec F S26x100001 .f32 := Host.absf main_arg3
  let main_cst_2 : FVec F S_ .f32 := constant S_ .f32 0x7F800000#32
  let main_v10 : FVec F S26x100001 .f32 := broadcastInDim S26x100001 ![] bcast_S_S26x100001 main_cst_2
  let main_v11 : IVec S26x100001 1 := cmpf .olt main_v9 main_v10
  let main_c_3 : IVec S_ 1 := constantI S_ 1 1#1
  let main_v12 : IVec S_ 1 := (fun x v => Host.reduce IntOp.andi x v reducesTo_S26x100001_S_d0_1 h_S_) main_v11 main_c_3
  let main_v13 : IVec S_ 1 := andi main_v8 main_v12
  let main_v14 : FVec F S13 .f32 := Host.absf main_arg4
  let main_cst_4 : FVec F S_ .f32 := constant S_ .f32 0x7F800000#32
  let main_v15 : FVec F S13 .f32 := broadcastInDim S13 ![] bcast_S_S13 main_cst_4
  let main_v16 : IVec S13 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S16384x26 : Shape := ⟨2, ![16384, 26]⟩
abbrev S16384x13 : Shape := ⟨2, ![16384, 13]⟩
abbrev S26x100001x16 : Shape := ⟨3, ![26, 100001, 16]⟩
abbrev S26x100001 : Shape := ⟨2, ![26, 100001]⟩
abbrev S13 : Shape := ⟨1, ![13]⟩
abbrev S1 : Shape := ⟨1, ![1]⟩
abbrev S429 : Shape := ⟨1, ![429]⟩
abbrev S128x429 : Shape := ⟨2, ![128, 429]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩
abbrev S26x16384 : Shape := ⟨2, ![26, 16384]⟩
abbrev S26x16384x1 : Shape := ⟨3, ![26, 16384, 1]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S416 : Shape := ⟨1, ![416]⟩
abbrev S416x1 : Shape := ⟨2, ![416, 1]⟩
abbrev S1x16 : Shape := ⟨2, ![1, 16]⟩
abbrev S416x16 : Shape := ⟨2, ![416, 16]⟩
abbrev S13x1 : Shape := ⟨2, ![13, 1]⟩
abbrev S1x1 : Shape := ⟨2, ![1, 1]⟩
abbrev S429x128 : Shape := ⟨2, ![429, 128]⟩
abbrev S128x64 : Shape := ⟨2, ![128, 64]⟩
abbrev S64x1 : Shape := ⟨2, ![64, 1]⟩
abbrev S1x128 : Shape := ⟨2, ![1, 128]⟩
abbrev S1x429 : Shape := ⟨2, ![1, 429]⟩
abbrev S16384x1 : Shape := ⟨2, ![16384, 1]⟩
abbrev S2048x429 : Shape := ⟨2, ![2048, 429]⟩
abbrev S2048x26 : Shape := ⟨2, ![2048, 26]⟩
abbrev S2048x1 : Shape := ⟨2, ![2048, 1]⟩
abbrev S2048 : Shape := ⟨1, ![2048]⟩
abbrev S2048x416 : Shape := ⟨2, ![2048, 416]⟩
abbrev S2048x13 : Shape := ⟨2, ![2048, 13]⟩
abbrev S2048x16 : Shape := ⟨2, ![2048, 16]⟩
abbrev S2048x128 : Shape := ⟨2, ![2048, 128]⟩
abbrev S2048x64 : Shape := ⟨2, ![2048, 64]⟩
abbrev S16384 : Shape := ⟨1, ![16384]⟩

abbrev nBuf : Space → Nat
  | .hbm => 108
  | .vmem => 28
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100001x16, .f32⟩
  | .hbm, ⟨3, _⟩ => ⟨S26x100001, .f32⟩
  | .hbm, ⟨4, _⟩ => ⟨S13, .f32⟩
  | .hbm, ⟨5, _⟩ => ⟨S1, .f32⟩
  | .hbm, ⟨6, _⟩ => ⟨S429, .f32⟩
  | .hbm, ⟨7, _⟩ => ⟨S429, .f32⟩
  | .hbm, ⟨8, _⟩ => ⟨S429, .f32⟩
  | .hbm, ⟨9, _⟩ => ⟨S429, .f32⟩
  | .hbm, ⟨10, _⟩ => ⟨S128x429, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S64x128, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S1, .f32⟩
  | .hbm, ⟨24, _⟩ => ⟨S1, .f32⟩
  | .hbm, ⟨25, _⟩ => ⟨S_, .i32⟩
  | .hbm, ⟨26, _⟩ => ⟨S16384x26, .i32⟩
  | .hbm, ⟨27, _⟩ => ⟨S16384x26, .i1⟩
  | .hbm, ⟨28, _⟩ => ⟨S_, .i32⟩
  | .hbm, ⟨29, _⟩ => ⟨S16384x26, .i32⟩
  | .hbm, ⟨30, _⟩ => ⟨S16384x26, .i32⟩
  | .hbm, ⟨31, _⟩ => ⟨S16384x26, .i32⟩
  | .hbm, ⟨32, _⟩ => ⟨S26x16384, .i32⟩
  | .hbm, ⟨33, _⟩ => ⟨S26x16384x1, .i32⟩
  | .hbm, ⟨34, _⟩ => ⟨S26x16384x16, .f32⟩
  | .hbm, ⟨35, _⟩ => ⟨S16384x26x16, .f32⟩
  | .hbm, ⟨36, _⟩ => ⟨S_, .i32⟩
  | .hbm, ⟨37, _⟩ => ⟨S16384x26, .i32⟩
  | .hbm, ⟨38, _⟩ => ⟨S16384x26, .i1⟩
  | .hbm, ⟨39, _⟩ => ⟨S_, .i32⟩
  | .hbm, ⟨40, _⟩ => ⟨S16384x26, .i32⟩
  | .hbm, ⟨41, _⟩ => ⟨S16384x26, .i32⟩
  | .hbm, ⟨42, _⟩ => ⟨S16384x26, .i32⟩
  | .hbm, ⟨43, _⟩ => ⟨S26x16384, .i32⟩
  | .hbm, ⟨44, _⟩ => ⟨S26x16384x1, .i32⟩
  | .hbm, ⟨45, _⟩ => ⟨S26x16384, .f32⟩
  | .hbm, ⟨46, _⟩ => ⟨S16384x26, .f32⟩
  | .hbm, ⟨47, _⟩ => ⟨S16384x416, .f32⟩
  | .hbm, ⟨48, _⟩ => ⟨S16384x416, .bf16⟩
  | .hbm, ⟨49, _⟩ => ⟨S16384x26, .bf16⟩
  | .hbm, ⟨50, _⟩ => ⟨S16384x13, .bf16⟩
  | .hbm, ⟨51, _⟩ => ⟨S16384x429, .bf16⟩
  | .hbm, ⟨52, _⟩ => ⟨S416, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S416, .i32⟩
  | .hbm, ⟨60, _⟩ => ⟨S416, .i32⟩
  | .hbm, ⟨61, _⟩ => ⟨S_, .i32⟩
  | .hbm, ⟨62, _⟩ => ⟨S416, .i32⟩
  | .hbm, ⟨63, _⟩ => ⟨S416, .i1⟩
  | .hbm, ⟨64, _⟩ => ⟨S_, .i32⟩
  | .hbm, ⟨65, _⟩ => ⟨S416, .i32⟩
  | .hbm, ⟨66, _⟩ => ⟨S416, .i1⟩
  | .hbm, ⟨67, _⟩ => ⟨S_, .i32⟩
  | .hbm, ⟨68, _⟩ => ⟨S_, .i1⟩
  | .hbm, ⟨69, _⟩ => ⟨S416, .i1⟩
  | .hbm, ⟨70, _⟩ => ⟨S416, .i1⟩
  | .hbm, ⟨71, _⟩ => ⟨S416, .i1⟩
  | .hbm, ⟨72, _⟩ => ⟨S416, .i32⟩
  | .hbm, ⟨73, _⟩ => ⟨S416, .i32⟩
  | .hbm, ⟨74, _⟩ => ⟨S416, .i32⟩
  | .hbm, ⟨75, _⟩ => ⟨S416x1, .i32⟩
  | .hbm, ⟨76, _⟩ => ⟨S1x16, .i32⟩
  | .hbm, ⟨77, _⟩ => ⟨S416x16, .i32⟩
  | .hbm, ⟨78, _⟩ => ⟨S416x16, .i32⟩
  | .hbm, ⟨79, _⟩ => ⟨S416x16, .i1⟩
  | .hbm, ⟨80, _⟩ => ⟨S416x16, .bf16⟩
  | .hbm, ⟨81, _⟩ => ⟨S13x1, .f32⟩
  | .hbm, ⟨82, _⟩ => ⟨S13x1, .bf16⟩
  | .hbm, ⟨83, _⟩ => ⟨S1x1, .f32⟩
  | .hbm, ⟨84, _⟩ => ⟨S429x128, .f32⟩
  | .hbm, ⟨85, _⟩ => ⟨S429x128, .bf16⟩
  | .hbm, ⟨86, _⟩ => ⟨S128x64, .f32⟩
  | .hbm, ⟨87, _⟩ => ⟨S128x64, .bf16⟩
  | .hbm, ⟨88, _⟩ => ⟨S64x1, .f32⟩
  | .hbm, ⟨89, _⟩ => ⟨S64x1, .bf16⟩
  | .hbm, ⟨90, _⟩ => ⟨S1x128, .f32⟩
  | .hbm, ⟨91, _⟩ => ⟨S1x64, .f32⟩
  | .hbm, ⟨92, _⟩ => ⟨S1x1, .f32⟩
  | .hbm, ⟨93, _⟩ => ⟨S1x1, .f32⟩
  | .hbm, ⟨94, _⟩ => ⟨S1x429, .f32⟩
  | .hbm, ⟨95, _⟩ => ⟨S1x429, .f32⟩
  | .hbm, ⟨96, _⟩ => ⟨S1x429, .f32⟩
  | .hbm, ⟨97, _⟩ => ⟨S1x429, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S16384x1, .f32⟩
  | .hbm, ⟨107, _⟩ => ⟨S16384, .f32⟩
  | .local _ .vmem, ⟨0, _⟩ => ⟨S2048x429, .bf16⟩
  | .local _ .vmem, ⟨1, _⟩ => ⟨S2048x429, .bf16⟩
  | .local _ .vmem, ⟨2, _⟩ => ⟨S2048x26, .bf16⟩
  | .local _ .vmem, ⟨3, _⟩ => ⟨S2048x26, .bf16⟩
  | .local _ .vmem, ⟨4, _⟩ => ⟨S416x16, .bf16⟩
  | .local _ .vmem, ⟨5, _⟩ => ⟨S13x1, .bf16⟩
  | .local _ .vmem, ⟨6, _⟩ => ⟨S1x1, .f32⟩
  | .local _ .vmem, ⟨7, _⟩ => ⟨S1x429, .f32⟩
  | .local _ .vmem, ⟨8, _⟩ => ⟨S1x429, .f32⟩
  | .local _ .vmem, ⟨9, _⟩ => ⟨S1x429, .f32⟩
  | .local _ .vmem, ⟨10, _⟩ => ⟨S1x429, .f32⟩
  | .local _ .vmem, ⟨11, _⟩ => ⟨S429x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x64, .bf16⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S64x1, .bf16⟩
  | .local _ .vmem, ⟨24, _⟩ => ⟨S1x1, .f32⟩
  | .local _ .vmem, ⟨25, _⟩ => ⟨S1x1, .f32⟩
  | .local _ .vmem, ⟨26, _⟩ => ⟨S2048x1, .f32⟩
  | .local _ .vmem, ⟨27, _⟩ => ⟨S2048x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_v5 : Ref sig .tc := ⟨.hbm, 62, rfl⟩
abbrev main_call0_v6 : Ref sig .tc := ⟨.hbm, 63, rfl⟩
abbrev main_call0_c_2 : Ref sig .tc := ⟨.hbm, 64, rfl⟩
abbrev main_call0_v7 : Ref sig .tc := ⟨.hbm, 65, rfl⟩
abbrev main_call0_v8 : Ref sig .tc := ⟨.hbm, 66, rfl⟩
abbrev main_call0_c_3 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_v24 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x429 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x26 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S416x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x429 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x429 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x429 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x429 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S429x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x1 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S2048x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  transposes_S26x16384x16_S16384x26x16_1_0_2 : S26x16384x16.Transposes [1, 0, 2] S16384x26x16
  transposes_S26x16384_S16384x26_1_0 : S26x16384.Transposes [1, 0] S16384x26
  shapeCasts_S16384x26x16_S16384x416 : S16384x26x16.ShapeCasts S16384x416
  bitsLt_bf16_f32 : FTy.bits .bf16 < FTy.bits .f32
  concatenates_S16384x416_S16384x13_S16384x429_d1 : Shape.Concatenates [S16384x416, S16384x13] S16384x429 1
  bcast_S_S416 : S_.BroadcastsInDim S416 (![] : Fin 0 → Fin S416.rank)
  bcast_S416_S416x1_0 : S416.BroadcastsInDim S416x1 (![0] : Fin 1 → Fin S416x1.rank)
  bcast_S416x1_S416x16_0_1 : S416x1.BroadcastsInDim S416x16 (![0, 1] : Fin 2 → Fin S416x16.rank)
  bcast_S1x16_S416x16_0_1 : S1x16.BroadcastsInDim S416x16 (![0, 1] : Fin 2 → Fin S416x16.rank)
  shapeCasts_S13_S13x1 : S13.ShapeCasts S13x1
  shapeCasts_S1_S1x1 : S1.ShapeCasts S1x1
  transposes_S128x429_S429x128_1_0 : S128x429.Transposes [1, 0] S429x128
  transposes_S64x128_S128x64_1_0 : S64x128.Transposes [1, 0] S128x64
  transposes_S1x64_S64x1_1_0 : S1x64.Transposes [1, 0] S64x1
  shapeCasts_S128_S1x128 : S128.ShapeCasts S1x128
  shapeCasts_S64_S1x64 : S64.ShapeCasts S1x64
  shapeCasts_S429_S1x429 : S429.ShapeCasts S1x429
  inb_S2048x429_S2048x429_0_0 : ∀ a, (![0, 0] : Fin 2 → Nat) a + S2048x429.size a ≤ S2048x429.size a
  h_S2048x429 : 0 < S2048x429.numel
  shapeCasts_S2048x429_S2048x429 : S2048x429.ShapeCasts S2048x429
  inb_S2048x26_S2048x26_0_0 : ∀ a, (![0, 0] : Fin 2 → Nat) a + S2048x26.size a ≤ S2048x26.size a
  h_S2048x26 : 0 < S2048x26.numel
  shapeCasts_S2048x26_S2048x26 : S2048x26.ShapeCasts S2048x26
  reduces_S2048x26_S2048 : S2048x26.Reduces [1] S2048
  shapeCasts_S2048_S2048x1 : S2048.ShapeCasts S2048x1
  slices_S2048x429_o0_0_S2048x416 : S2048x429.Slices ![0, 0] S2048x416
  slices_S2048x429_o0_416_S2048x13 : S2048x429.Slices ![0, 416] S2048x13
  inb_S13x1_S13x1_0_0 : ∀ a, (![0, 0] : Fin 2 → Nat) a + S13x1.size a ≤ S13x1.size a
  h_S13x1 : 0 < S13x1.numel
  shapeCasts_S13x1_S13x1 : S13x1.ShapeCasts S13x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S416x16_S416x16_0_0 : ∀ a, (![0, 0] : Fin 2 → Nat) a + S416x16.size a ≤ S416x16.size a
  h_S416x16 : 0 < S416x16.numel
  shapeCasts_S416x16_S416x16 : S416x16.ShapeCasts S416x16
  reduces_S2048x16_S2048 : S2048x16.Reduces [1] S2048
  inb_S1x429_S1x429_0_0 : ∀ a, (![0, 0] : Fin 2 → Nat) a + S1x429.size a ≤ S1x429.size a
  h_S1x429 : 0 < S1x429.numel
  shapeCasts_S1x429_S1x429 : S1x429.ShapeCasts S1x429
  broadcasts_S1x429_S2048x429 : S1x429.Broadcasts S2048x429
  inb_S429x128_S429x128_0_0 : ∀ a, (![0, 0] : Fin 2 → Nat) a + S429x128.size a ≤ S429x128.size a
  h_S429x128 : 0 < S429x128.numel
  shapeCasts_S429x128_S429x128 : S429x128.ShapeCasts S429x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S26x100001x16_S26x16384x1_S26x16384x16_2_1_0_0_1_2_1116_wf : GatherDims.WF S26x100001x16 S26x16384x1 S26x16384x16 [2] [1] [0] [1] [0] 2 ![1, 1, 16]
  gather_S26x100001_S26x16384x1_S26x16384_n_1_0_0_1_2_11_wf : GatherDims.WF S26x100001 S26x16384x1 S26x16384 [] [1] [0] [1] [0] 2 ![1, 1]
  dot_S2048x13_S13x1_S2048x1_1_0_0_1_n_n_wf : DotDims.WF S2048x13 S13x1 S2048x1 [1] [0] [0] [1] [] []
  dot_S2048x416_S416x16_S2048x16_1_0_0_1_n_n_wf : DotDims.WF S2048x416 S416x16 S2048x16 [1] [0] [0] [1] [] []
  dot_S2048x429_S429x128_S2048x128_1_0_0_1_n_n_wf : DotDims.WF S2048x429 S429x128 S2048x128 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x429.size a ≤ S16384x429.size a
  hwx0_0 : ∀ i : grid0.Coords, EltTy.bits .bf16 = 32 ∨ (Rect.block (s := S16384x429) S2048x429.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x26.size a ≤ S16384x26.size a
  hwx0_1 : ∀ i : grid0.Coords, EltTy.bits .bf16 = 32 ∨ (Rect.block (s := S16384x26) S2048x26.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S416x16.size a ≤ S416x16.size a
  hwx0_2 : ∀ i : grid0.Coords, EltTy.bits .bf16 = 32 ∨ (Rect.block (s := S416x16) S416x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x1.size a ≤ S13x1.size a
  hwx0_3 : ∀ i : grid0.Coords, EltTy.bits .bf16 = 32 ∨ (Rect.block (s := S13x1) S13x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x429.size a ≤ S1x429.size a
  hwx0_5 : ∀ i : grid0.Coords, EltTy.bits .f32 = 32 ∨ (Rect.block (s := S1x429) S1x429.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x429.size a ≤ S1x429.size a
  hwx0_6 : ∀ i : grid0.Coords, EltTy.bits .f32 = 32 ∨ (Rect.block (s := S1x429) S1x429.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x429.size a ≤ S1x429.size a
  hwx0_7 : ∀ i : grid0.Coords, EltTy.bits .f32 = 32 ∨ (Rect.block (s := S1x429) S1x429.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x429.size a ≤ S1x429.size a
  hwx0_8 : ∀ i : grid0.Coords, EltTy.bits .f32 = 32 ∨ (Rect.block (s := S1x429) S1x429.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S429x128.size a ≤ S429x128.size a
  hwx0_9 : ∀ i : grid0.Coords, EltTy.bits .bf16 = 32 ∨ (Rect.block (s := S429x128) S429x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x64.size a ≤ S128x64.size a
  hwx0_15 : ∀ i : grid0.Coords, EltTy.bits .bf16 = 32 ∨ (Rect.block (s := S128x64) S128x64.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x64.size a ≤ S1x64.size a
  hwx0_17 : ∀ i : grid0.Coords, EltTy.bits .f32 = 32 ∨ (Rect.block (s := S1x64) S1x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x64.size a ≤ S1x64.size a
  hwx0_19 : ∀ i : grid0.Coords, EltTy.bits .f32 = 32 ∨ (Rect.block (s := S1x64) S1x64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64x1.size a ≤ S64x1.size a
  hwx0_21 : ∀ i : grid0.Coords, EltTy.bits .bf16 = 32 ∨ (Rect.block (s := S64x1) S64x1.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x1.size a ≤ S1x1.size a
  hwx0_23 : ∀ i : grid0.Coords, EltTy.bits .f32 = 32 ∨ (Rect.block (s := S1x1) S1x1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x1.size a ≤ S16384x1.size a
  hwx0_24 : ∀ i : grid0.Coords, EltTy.bits .f32 = 32 ∨ (Rect.block (s := S16384x1) S2048x1.size (cc0_transform_24 i) (hinb0_24 i)).WholeWords (EltTy.packing .f32)

variable [Facts₀]

def gather_S26x100001x16_S26x16384x1_S26x16384x16_2_1_0_0_1_2_1116 : GatherDims S26x100001x16 S26x16384x1 S26x16384x16 where
  offsetDims := [2]
  collapsedSliceDims := [1]
  operandBatchingDims := [0]
  startIndicesBatchingDims := [0]
  startIndexMap := [1]
  indexVectorDim := 2
  sliceSizes := ![1, 1, 16]
  wf := gather_S26x100001x16_S26x16384x1_S26x16384x16_2_1_0_0_1_2_1116_wf
def gather_S26x100001_S26x16384x1_S26x16384_n_1_0_0_1_2_11 : GatherDims S26x100001 S26x16384x1 S26x16384 where
  offsetDims := []
  collapsedSliceDims := [1]
  operandBatchingDims := [0]
  startIndicesBatchingDims := [0]
  startIndexMap := [1]
  indexVectorDim := 2
  sliceSizes := ![1, 1]
  wf := gather_S26x100001_S26x16384x1_S26x16384_n_1_0_0_1_2_11_wf
def dot_S2048x13_S13x1_S2048x1_1_0_0_1_n_n : DotDims S2048x13 S13x1 S2048x1 where
  lhsContracting := [1]
  rhsContracting := [0]
  lhsNonContracting := [0]
  rhsNonContracting := [1]
  lhsBatch := []
  rhsBatch := []
  wf := dot_S2048x13_S13x1_S2048x1_1_0_0_1_n_n_wf
def dot_S2048x416_S416x16_S2048x16_1_0_0_1_n_n : DotDims S2048x416 S416x16 S2048x16 where
  lhsContracting := [1]
  rhsContracting := [0]
  lhsNonContracting := [0]
  rhsNonContracting := [1]
  lhsBatch := []
  rhsBatch := []
  wf := dot_S2048x416_S416x16_S2048x16_1_0_0_1_n_n_wf
def dot_S2048x429_S429x128_S2048x128_1_0_0_1_n_n : DotDims S2048x429 S429x128 S2048x128 where
  lhsContracting := [1]
  rhsContracting := [0]
  lhsNonContracting := [0]
  rhsNonContracting := [1]
  lhsBatch := []
  rhsBatch := []
  wf := dot_S2048x429_S429x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v22) S2048x429.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S416x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S13x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x429.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x429.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x429.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S1x429.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S429x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v44) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v45) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v46) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v32) S128x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v36) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v47) S1x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v48) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v49) S1x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v50) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v34) S64x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v37) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v38) S1x1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v51) S2048x1.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x100001x16 : Shape := ⟨3, ![26, 100001, 16]⟩
abbrev S26x100001 : Shape := ⟨2, ![26, 100001]⟩
abbrev S13 : Shape := ⟨1, ![13]⟩
abbrev S1 : Shape := ⟨1, ![1]⟩
abbrev S429 : Shape := ⟨1, ![429]⟩
abbrev S128x429 : Shape := ⟨2, ![128, 429]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩
abbrev S26x16384 : Shape := ⟨2, ![26, 16384]⟩
abbrev S26x16384x1 : Shape := ⟨3, ![26, 16384, 1]⟩
abbrev S26x16384x16 : Shape := ⟨3, ![26, 16384, 16]⟩
abbrev S16384x26x16 : Shape := ⟨3, ![16384, 26, 16]⟩
abbrev S16384 : Shape := ⟨1, ![16384]⟩
abbrev S16384x1 : Shape := ⟨2, ![16384, 1]⟩
abbrev S13x1 : Shape := ⟨2, ![13, 1]⟩
abbrev S1x1 : Shape := ⟨2, ![1, 1]⟩
abbrev S16384x16 : Shape := ⟨2, ![16384, 16]⟩
abbrev S16384x416 : Shape := ⟨2, ![16384, 416]⟩
abbrev S16384x429 : Shape := ⟨2, ![16384, 429]⟩
abbrev S1x429 : Shape := ⟨2, ![1, 429]⟩
abbrev S429x128 : Shape := ⟨2, ![429, 128]⟩
abbrev S16384x128 : Shape := ⟨2, ![16384, 128]⟩
abbrev S1x128 : Shape := ⟨2, ![1, 128]⟩
abbrev S128x64 : Shape := ⟨2, ![128, 64]⟩
abbrev S16384x64 : Shape := ⟨2, ![16384, 64]⟩
abbrev S64x1 : Shape := ⟨2, ![64, 1]⟩

abbrev nBuf : Space → Nat
  | .hbm => 146
  | .vmem => 0
  | .smem => 0
  | _ => 0

abbrev hbmTy0_0 (i : Nat) : BufTy := match i % 128 with
  | 0 => ⟨S16384x26, .i32⟩
  | 1 => ⟨S16384x13, .f32⟩
  | 2 => ⟨S26x100001x16, .f32⟩
  | 3 => ⟨S26x100001, .f32⟩
  | 4 => ⟨S13, .f32⟩
  | 5 => ⟨S1, .f32⟩
  | 6 => ⟨S429, .f32⟩
  | 7 => ⟨S429, .f32⟩
  | 8 => ⟨S429, .f32⟩
  | 9 => ⟨S429, .f32⟩
  | 10 => ⟨S128x429, .f32⟩
  | 11 => ⟨S128, .f32⟩
  | 12 => ⟨S128, .f32⟩
  | 13 => ⟨S128, .f32⟩
  | 14 => ⟨S128, .f32⟩
  | 15 => ⟨S128, .f32⟩
  | 16 => ⟨S64x128, .f32⟩
  | 17 => ⟨S64, .f32⟩
  | 18 => ⟨S64, .f32⟩
  | 19 => ⟨S64, .f32⟩
  | 20 => ⟨S64, .f32⟩
  | 21 => ⟨S64, .f32⟩
  | 22 => ⟨S1x64, .f32⟩
  | 23 => ⟨S1, .f32⟩
  | 24 => ⟨S1, .f32⟩
  | 25 => ⟨S_, .i32⟩
  | 26 => ⟨S16384x26, .i32⟩
  | 27 => ⟨S16384x26, .i1⟩
  | 28 => ⟨S_, .i32⟩
  | 29 => ⟨S16384x26, .i32⟩
  | 30 => ⟨S16384x26, .i32⟩
  | 31 => ⟨S16384x26, .i32⟩
  | 32 => ⟨S26x16384, .i32⟩
  | 33 => ⟨S26x16384x1, .i32⟩
  | 34 => ⟨S26x16384x16, .f32⟩
  | 35 => ⟨S16384x26x16, .f32⟩
  | 36 => ⟨S_, .i32⟩
  | 37 => ⟨S16384x26, .i32⟩
  | 38 => ⟨S16384x26, .i1⟩
  | 39 => ⟨S_, .i32⟩
  | 40 => ⟨S16384x26, .i32⟩
  | 41 => ⟨S16384x26, .i32⟩
  | 42 => ⟨S16384x26, .i32⟩
  | 43 => ⟨S26x16384, .i32⟩
  | 44 => ⟨S26x16384x1, .i32⟩
  | 45 => ⟨S26x16384, .f32⟩
  | 46 => ⟨S16384x26, .f32⟩
  | 47 => ⟨S_, .f32⟩
  | 48 => ⟨S16384, .f32⟩
  | 49 => ⟨S16384x1, .f32⟩
  | 50 => ⟨S13x1, .f32⟩
  | 51 => ⟨S16384x1, .f32⟩
  | 52 => ⟨S1x1, .f32⟩
  | 53 => ⟨S16384x1, .f32⟩
  | 54 => ⟨S16384x1, .f32⟩
  | 55 => ⟨S_, .f32⟩
  | 56 => ⟨S16384x16, .f32⟩
  | 57 => ⟨S16384x16, .f32⟩
  | 58 => ⟨S16384x26x16, .f32⟩
  | 59 => ⟨S_, .f32⟩
  | 60 => ⟨S16384x16, .f32⟩
  | 61 => ⟨S16384x16, .f32⟩
  | 62 => ⟨S_, .f32⟩
  | 63 => ⟨S16384, .f32⟩
  | 64 => ⟨S16384x1, .f32⟩
  | 65 => ⟨S_, .f32⟩
  | 66 => ⟨S16384x1, .f32⟩
  | 67 => ⟨S16384x1, .f32⟩
  | 68 => ⟨S16384x416, .f32⟩
  | 69 => ⟨S16384x429, .f32⟩
  | 70 => ⟨S1x429, .f32⟩
  | 71 => ⟨S16384x429, .f32⟩
  | 72 => ⟨S16384x429, .f32⟩
  | 73 => ⟨S_, .f32⟩
  | 74 => ⟨S429, .f32⟩
  | 75 => ⟨S429, .f32⟩
  | 76 => ⟨S429, .f32⟩
  | 77 => ⟨S1x429, .f32⟩
  | 78 => ⟨S16384x429, .f32⟩
  | 79 => ⟨S16384x429, .f32⟩
  | 80 => ⟨S1x429, .f32⟩
  | 81 => ⟨S16384x429, .f32⟩
  | 82 => ⟨S16384x429, .f32⟩
  | 83 => ⟨S1x429, .f32⟩
  | 84 => ⟨S16384x429, .f32⟩
  | 85 => ⟨S16384x429, .f32⟩
  | 86 => ⟨S429x128, .f32⟩
  | 87 => ⟨S16384x128, .f32⟩
  | 88 => ⟨S1x128, .f32⟩
  | 89 => ⟨S16384x128, .f32⟩
  | 90 => ⟨S16384x128, .f32⟩
  | 91 => ⟨S1x128, .f32⟩
  | 92 => ⟨S16384x128, .f32⟩
  | 93 => ⟨S16384x128, .f32⟩
  | 94 => ⟨S_, .f32⟩
  | 95 => ⟨S128, .f32⟩
  | 96 => ⟨S128, .f32⟩
  | 97 => ⟨S128, .f32⟩
  | 98 => ⟨S1x128, .f32⟩
  | 99 => ⟨S16384x128, .f32⟩
  | 100 => ⟨S16384x128, .f32⟩
  | 101 => ⟨S1x128, .f32⟩
  | 102 => ⟨S16384x128, .f32⟩
  | 103 => ⟨S16384x128, .f32⟩
  | 104 => ⟨S1x128, .f32⟩
  | 105 => ⟨S16384x128, .f32⟩
  | 106 => ⟨S16384x128, .f32⟩
  | 107 => ⟨S_, .f32⟩
  | 108 => ⟨S16384x128, .f32⟩
  | 109 => ⟨S16384x128, .f32⟩
  | 110 => ⟨S128x64, .f32⟩
  | 111 => ⟨S16384x64, .f32⟩
  | 112 => ⟨S1x64, .f32⟩
  | 113 => ⟨S16384x64, .f32⟩
  | 114 => ⟨S16384x64, .f32⟩
  | 115 => ⟨S1x64, .f32⟩
  | 116 => ⟨S16384x64, .f32⟩
  | 117 => ⟨S16384x64, .f32⟩
  | 118 => ⟨S_, .f32⟩
  | 119 => ⟨S64, .f32⟩
  | 120 => ⟨S64, .f32⟩
  | 121 => ⟨S64, .f32⟩
  | 122 => ⟨S1x64, .f32⟩
  | 123 => ⟨S16384x64, .f32⟩
  | 124 => ⟨S16384x64, .f32⟩
  | 125 => ⟨S1x64, .f32⟩
  | 126 => ⟨S16384x64, .f32⟩
  | 127 => ⟨S16384x64, .f32⟩
  | _ => ⟨S16384x26, .i32⟩

abbrev hbmTy0_1 (i : Nat) : BufTy := match i % 128 with
  | 0 => ⟨S1x64, .f32⟩
  | 1 => ⟨S16384x64, .f32⟩
  | 2 => ⟨S16384x64, .f32⟩
  | 3 => ⟨S_, .f32⟩
  | 4 => ⟨S16384x64, .f32⟩
  | 5 => ⟨S16384x64, .f32⟩
  | 6 => ⟨S64x1, .f32⟩
  | 7 => ⟨S16384x1, .f32⟩
  | 8 => ⟨S1x1, .f32⟩
  | 9 => ⟨S16384x1, .f32⟩
  | 10 => ⟨S16384x1, .f32⟩
  | 11 => ⟨S1x1, .f32⟩
  | 12 => ⟨S16384x1, .f32⟩
  | 13 => ⟨S16384x1, .f32⟩
  | 14 => ⟨S16384x1, .f32⟩
  | 15 => ⟨S16384x1, .f32⟩
  | 16 => ⟨S16384x1, .f32⟩
  | 17 => ⟨S16384, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_cst_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_8 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call0_cst : Ref sig .tc := ⟨.hbm, 107, rfl⟩
abbrev main_call0_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_9 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call1_cst : Ref sig .tc := ⟨.hbm, 131, rfl⟩
abbrev main_call1_v0 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  transposes_S26x16384x16_S16384x26x16_1_0_2 : S26x16384x16.Transposes [1, 0, 2] S16384x26x16
  transposes_S26x16384_S16384x26_1_0 : S26x16384.Transposes [1, 0] S16384x26
  reducesTo_S16384x26_S16384_d1 : S16384x26.ReducesTo [1] S16384
  h_S_ : 0 < S_.numel
  bcast_S16384_S16384x1_0 : S16384.BroadcastsInDim S16384x1 (![0] : Fin 1 → Fin S16384x1.rank)
  bcast_S13_S13x1_0 : S13.BroadcastsInDim S13x1 (![0] : Fin 1 → Fin S13x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  concatenates_S16384x416_S16384x13_S16384x429_d1 : Shape.Concatenates [S16384x416, S16384x13] S16384x429 1
  bcast_S429_S1x429_1 : S429.BroadcastsInDim S1x429 (![1] : Fin 1 → Fin S1x429.rank)
  bcast_S1x429_S16384x429_0_1 : S1x429.BroadcastsInDim S16384x429 (![0, 1] : Fin 2 → Fin S16384x429.rank)
  bcast_S_S429 : S_.BroadcastsInDim S429 (![] : Fin 0 → Fin S429.rank)
  transposes_S128x429_S429x128_1_0 : S128x429.Transposes [1, 0] S429x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S128 : S_.BroadcastsInDim S128 (![] : Fin 0 → Fin S128.rank)
  bcast_S_S16384x128 : S_.BroadcastsInDim S16384x128 (![] : Fin 0 → Fin S16384x128.rank)
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S64 : S_.BroadcastsInDim S64 (![] : Fin 0 → Fin S64.rank)
  bcast_S_S16384x64 : S_.BroadcastsInDim S16384x64 (![] : Fin 0 → Fin S16384x64.rank)
  transposes_S1x64_S64x1_1_0 : S1x64.Transposes [1, 0] S64x1
  shapeCasts_S16384x1_S16384 : S16384x1.ShapeCasts S16384
  gather_S26x100001x16_S26x16384x1_S26x16384x16_2_1_0_0_1_2_1116_wf : GatherDims.WF S26x100001x16 S26x16384x1 S26x16384x16 [2] [1] [0] [1] [0] 2 ![1, 1, 16]
  gather_S26x100001_S26x16384x1_S26x16384_n_1_0_0_1_2_11_wf : GatherDims.WF S26x100001 S26x16384x1 S26x16384 [] [1] [0] [1] [0] 2 ![1, 1]
  dot_S16384x13_S13x1_S16384x1_1_0_0_1_n_n_wf : DotDims.WF S16384x13 S13x1 S16384x1 [1] [0] [0] [1] [] []
  dot_S16384x429_S429x128_S16384x128_1_0_0_1_n_n_wf : DotDims.WF S16384x429 S429x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def gather_S26x100001x16_S26x16384x1_S26x16384x16_2_1_0_0_1_2_1116 : GatherDims S26x100001x16 S26x16384x1 S26x16384x16 where
  offsetDims := [2]
  collapsedSliceDims := [1]
  operandBatchingDims := [0]
  startIndicesBatchingDims := [0]
  startIndexMap := [1]
  indexVectorDim := 2
  sliceSizes := ![1, 1, 16]
  wf := gather_S26x100001x16_S26x16384x1_S26x16384x16_2_1_0_0_1_2_1116_wf
def gather_S26x100001_S26x16384x1_S26x16384_n_1_0_0_1_2_11 : GatherDims S26x100001 S26x16384x1 S26x16384 where
  offsetDims := []
  collapsedSliceDims := [1]
  operandBatchingDims := [0]
  startIndicesBatchingDims := [0]
  startIndexMap := [1]
  indexVectorDim := 2
  sliceSizes := ![1, 1]
  wf := gather_S26x100001_S26x16384x1_S26x16384_n_1_0_0_1_2_11_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def dot_S16384x429_S429x128_S16384x128_1_0_0_1_n_n : DotDims S16384x429 S429x128 S16384x128 where
  lhsContracting := [1]
  rhsContracting := [0]
  lhsNonContracting := [0]
  rhsNonContracting := [1]
  lhsBatch := []
  rhsBatch := []
  wf := dot_S16384x429_S429x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Blocks.lean ====
/-
  Each input window's block at a grid point, read off the array the window stages.

  The two batch-tiled windows (the deep features and the per-feature linear terms) hold, at point t, rows
  2048·t … 2048·t + 2047 of their arrays; every other window's block is its whole array at every point.
-/
import proofs.«136922_j82471962018408_2_alg».proof.Proof.FrameKernelIdeal
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The batch-tiled windows (two inputs and the output) move one block of rows per grid point and stay on column block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_24.index t (0 : Fin 2) = t.val ∧ win0_24.index t (1 : Fin 2) = 0 :=
  (by decide +kernel : ∀ t : Fin grid0.N, _)

/-- Window 2 stays on block (0, 0). -/
theorem idx_w2 : ∀ t : Fin cfg0.N, win0_2.index t (0 : Fin 2) = 0 ∧ win0_2.index t (1 : Fin 2) = 0 :=
  (by decide +kernel : ∀ t : Fin grid0.N, _)
/-- Window 3 stays on block (0, 0). -/
theorem idx_w3 : ∀ t : Fin cfg0.N, win0_3.index t (0 : Fin 2) = 0 ∧ win0_3.index t (1 : Fin 2) = 0 :=
  (by decide +kernel : ∀ t : Fin grid0.N, _)
/-- Window 4 stays on block (0, 0). -/
theorem idx_w4 : ∀ t : Fin cfg0.N, win0_4.index t (0 : Fin 2) = 0 ∧ win0_4.index t (1 : Fin 2) = 0 :=
  (by decide +kernel : ∀ t : Fin grid0.N, _)
/-- Window 5 stays on block (0, 0). -/
theorem idx_w5 : ∀ t : Fin cfg0.N, win0_5.index t (0 : Fin 2) = 0 ∧ win0_5.index t (1 : Fin 2) = 0 :=
  (by decide +kernel : ∀ t : Fin grid0.N, _)
/-- Window 6 stays on block (0, 0). -/
theorem idx_w6 : ∀ t : Fin cfg0.N, win0_6.index t (0 : Fin 2) = 0 ∧ win0_6.index t (1 : Fin 2) = 0 :=
  (by decide +kernel : ∀ t : Fin grid0.N, _)
/-- Window 7 stays on block (0, 0). -/
theorem idx_w7 : ∀ t : Fin cfg0.N, win0_7.index t (0 : Fin 2) = 0 ∧ win0_7.index t (1 : Fin 2) = 0 :=
  (by decide +kernel : ∀ t : Fin grid0.N, _)
/-- Window 8 stays on block (0, 0). -/
theorem idx_w8 : ∀ t : Fin cfg0.N, win0_8.index t (0 : Fin 2) = 0 ∧ win0_8.index t (1 : Fin 2) = 0 :=
  (by decide +kernel : ∀ t : Fin grid0.N, _)
/-- Window 9 stays on block (0, 0). -/
theorem idx_w9 : ∀ t : Fin cfg0.N, win0_9.index t (0 : Fin 2) = 0 ∧ win0_9.index t (1 : Fin 2) = 0 :=
  (by decide +kernel : ∀ t : Fin grid0.N, _)
/-- Window 10 stays on block (0, 0). -/
theorem idx_w10 : ∀ t : Fin cfg0.N, win0_10.index t (0 : Fin 2) = 0 ∧ win0_10.index t (1 : Fin 2) = 0 :=
  (by decide +kernel : ∀ t : Fin grid0.N, _)
/-- Window 11 stays on block (0, 0). -/
theorem idx_w11 : ∀ t : Fin cfg0.N, win0_11.index t (0 : Fin 2) = 0 ∧ win0_11.index t (1 : Fin 2) = 0 :=
  (by decide +kernel : ∀ t : Fin grid0.N, _)
/-- Window 12 stays on block (0, 0). -/
theorem idx_w12 : ∀ t : Fin cfg0.N, win0_12.index t (0 : Fin 2) = 0 ∧ win0_12.index t (1 : Fin 2) = 0 :=
  (by decide +kernel : ∀ t : Fin grid0.N, _)
/-- Window 13 stays on block (0, 0). -/
theorem idx_w13 : ∀ t : Fin cfg0.N, win0_13.index t (0 : Fin 2) = 0 ∧ win0_13.index t (1 : Fin 2) = 0 :=
  (by decide +kernel : ∀ t : Fin grid0.N, _)
/-- Window 14 stays on block (0, 0). -/
theorem idx_w14 : ∀ t : Fin cfg0.N, win0_14.index t (0 : Fin 2) = 0 ∧ win0_14.index t (1 : Fin 2) = 0 :=
  (by decide +kernel : ∀ t : Fin grid0.N, _)
/-- Window 15 stays on block (0, 0). -/
theorem idx_w15 : ∀ t : Fin cfg0.N, win0_15.index t (0 : Fin 2) = 0 ∧ win0_15.index t (1 : Fin 2) = 0 :=
  (by decide +kernel : ∀ t : Fin grid0.N, _)
/-- Window 16 stays on block (0, 0). -/
theorem idx_w16 : ∀ t : Fin cfg0.N, win0_16.index t (0 : Fin 2) = 0 ∧ win0_16.index t (1 : Fin 2) = 0 :=
  (by decide +kernel : ∀ t : Fin grid0.N, _)
/-- Window 17 stays on block (0, 0). -/
theorem idx_w17 : ∀ t : Fin cfg0.N, win0_17.index t (0 : Fin 2) = 0 ∧ win0_17.index t (1 : Fin 2) = 0 :=
  (by decide +kernel : ∀ t : Fin grid0.N, _)
/-- Window 18 stays on block (0, 0). -/
theorem idx_w18 : ∀ t : Fin cfg0.N, win0_18.index t (0 : Fin 2) = 0 ∧ win0_18.index t (1 : Fin 2) = 0 :=
  (by decide +kernel : ∀ t : Fin grid0.N, _)
/-- Window 19 stays on block (0, 0). -/
theorem idx_w19 : ∀ t : Fin cfg0.N, win0_19.index t (0 : Fin 2) = 0 ∧ win0_19.index t (1 : Fin 2) = 0 :=
  (by decide +kernel : ∀ t : Fin grid0.N, _)
/-- Window 20 stays on block (0, 0). -/
theorem idx_w20 : ∀ t : Fin cfg0.N, win0_20.index t (0 : Fin 2) = 0 ∧ win0_20.index t (1 : Fin 2) = 0 :=
  (by decide +kernel : ∀ t : Fin grid0.N, _)
/-- Window 21 stays on block (0, 0). -/
theorem idx_w21 : ∀ t : Fin cfg0.N, win0_21.index t (0 : Fin 2) = 0 ∧ win0_21.index t (1 : Fin 2) = 0 :=
  (by decide +kernel : ∀ t : Fin grid0.N, _)
/-- Window 22 stays on block (0, 0). -/
theorem idx_w22 : ∀ t : Fin cfg0.N, win0_22.index t (0 : Fin 2) = 0 ∧ win0_22.index t (1 : Fin 2) = 0 :=
  (by decide +kernel : ∀ t : Fin grid0.N, _)
/-- Window 23 stays on block (0, 0). -/
theorem idx_w23 : ∀ t : Fin cfg0.N, win0_23.index t (0 : Fin 2) = 0 ∧ win0_23.index t (1 : Fin 2) = 0 :=
  (by decide +kernel : ∀ t : Fin grid0.N, _)

/-- Window 0's block at point t of any array contents: rows 2048·t … 2048·t + 2047. -/
theorem read0_apply (c : Dev nD) (t : Fin cfg0.N) (A : S16384x429.Idx → Elt F .bf16) (x : S2048x429.Idx) (k : S16384x429.Idx)
    (hk0 : (k 0).val = 2048 * t.val + (x 0).val) (hk1 : (k 1).val = (x 1).val) :
    (((cfg0.win 0).blk t).view.read (Elt F) A : Vec F S2048x429 .bf16) x = A k := by
  obtain ⟨e0, e1, e2, e3, e4, e5⟩ := idx_rows t
  rw [View.read_apply]
  refine congrArg A (funext fun a => Fin.ext ?_)
  match a with
  | ⟨0, _⟩ => show win0_0.index t (0 : Fin 2) * 2048 + 1 * (x 0).val = (k 0).val; rw [e0, hk0]; omega
  | ⟨1, _⟩ => show win0_0.index t (1 : Fin 2) * 429 + 1 * (x 1).val = (k 1).val; rw [e1, hk1]; omega

/-- Window 0's block at point t is rows 2048·t … 2048·t + 2047 of its array. -/
theorem blk0_apply (c : Dev nD) (t : Fin cfg0.N) (x : S2048x429.Idx) (k : S16384x429.Idx)
    (hk0 : (k 0).val = 2048 * t.val + (x 0).val) (hk1 : (k 1).val = (x 1).val) :
    (iblk m c 0 t : Vec F S2048x429 .bf16) x = (V m c main_v22 : S16384x429.Idx → Elt F .bf16) k :=
  read0_apply c t (V m c main_v22) x k hk0 hk1

/-- Window 1's block at point t of any array contents: rows 2048·t … 2048·t + 2047. -/
theorem read1_apply (c : Dev nD) (t : Fin cfg0.N) (A : S16384x26.Idx → Elt F .bf16) (x : S2048x26.Idx) (k : S16384x26.Idx)
    (hk0 : (k 0).val = 2048 * t.val + (x 0).val) (hk1 : (k 1).val = (x 1).val) :
    (((cfg0.win 1).blk t).view.read (Elt F) A : Vec F S2048x26 .bf16) x = A k := by
  obtain ⟨e0, e1, e2, e3, e4, e5⟩ := idx_rows t
  rw [View.read_apply]
  refine congrArg A (funext fun a => Fin.ext ?_)
  match a with
  | ⟨0, _⟩ => show win0_1.index t (0 : Fin 2) * 2048 + 1 * (x 0).val = (k 0).val; rw [e2, hk0]; omega
  | ⟨1, _⟩ => show win0_1.index t (1 : Fin 2) * 26 + 1 * (x 1).val = (k 1).val; rw [e3, hk1]; omega

/-- Window 1's block at point t is rows 2048·t … 2048·t + 2047 of its array. -/
theorem blk1_apply (c : Dev nD) (t : Fin cfg0.N) (x : S2048x26.Idx) (k : S16384x26.Idx)
    (hk0 : (k 0).val = 2048 * t.val + (x 0).val) (hk1 : (k 1).val = (x 1).val) :
    (iblk m c 1 t : Vec F S2048x26 .bf16) x = (V m c main_v20 : S16384x26.Idx → Elt F .bf16) k :=
  read1_apply c t (V m c main_v20) x k hk0 hk1

/-- Window 2's block of any array contents is the whole array, at every point. -/
theorem read2 (c : Dev nD) (t : Fin cfg0.N) (A : S416x16.Idx → Elt F .bf16) (x : S416x16.Idx) :
    (((cfg0.win 2).blk t).view.read (Elt F) A : Vec F S416x16 .bf16) x = A x := by
  obtain ⟨e0, e1⟩ := idx_w2 t
  rw [View.read_apply]
  refine congrArg A (funext fun a => Fin.ext ?_)
  match a with
  | ⟨0, _⟩ => show win0_2.index t (0 : Fin 2) * 416 + 1 * (x 0).val = (x 0).val; rw [e0]; omega
  | ⟨1, _⟩ => show win0_2.index t (1 : Fin 2) * 16 + 1 * (x 1).val = (x 1).val; rw [e1]; omega

/-- Window 2's block is its whole array at every point. -/
theorem blk2 (c : Dev nD) (t : Fin cfg0.N) :
    (iblk m c 2 t : Vec F S416x16 .bf16) = (V m c main_v25 : S416x16.Idx → Elt F .bf16) :=
  funext fun x => read2 c t (V m c main_v25) x

/-- Window 3's block of any array contents is the whole array, at every point. -/
theorem read3 (c : Dev nD) (t : Fin cfg0.N) (A : S13x1.Idx → Elt F .bf16) (x : S13x1.Idx) :
    (((cfg0.win 3).blk t).view.read (Elt F) A : Vec F S13x1 .bf16) x = A x := by
  obtain ⟨e0, e1⟩ := idx_w3 t
  rw [View.read_apply]
  refine congrArg A (funext fun a => Fin.ext ?_)
  match a with
  | ⟨0, _⟩ => show win0_3.index t (0 : Fin 2) * 13 + 1 * (x 0).val = (x 0).val; rw [e0]; omega
  | ⟨1, _⟩ => show win0_3.index t (1 : Fin 2) * 1 + 1 * (x 1).val = (x 1).val; rw [e1]; omega

/-- Window 3's block is its whole array at every point. -/
theorem blk3 (c : Dev nD) (t : Fin cfg0.N) :
    (iblk m c 3 t : Vec F S13x1 .bf16) = (V m c main_v27 : S13x1.Idx → Elt F .bf16) :=
  funext fun x => read3 c t (V m c main_v27) x

/-- Window 4's block of any array contents is the whole array, at every point. -/
theorem read4 (c : Dev nD) (t : Fin cfg0.N) (A : S1x1.Idx → Elt F .f32) (x : S1x1.Idx) :
    (((cfg0.win 4).blk t).view.read (Elt F) A : Vec F S1x1 .f32) x = A x := by
  obtain ⟨e0, e1⟩ := idx_w4 t
  rw [View.read_apply]
  refine congrArg A (funext fun a => Fin.ext ?_)
  match a with
  | ⟨0, _⟩ => show win0_4.index t (0 : Fin 2) * 1 + 1 * (x 0).val = (x 0).val; rw [e0]; omega
  | ⟨1, _⟩ => show win0_4.index t (1 : Fin 2) * 1 + 1 * (x 1).val = (x 1).val; rw [e1]; omega

/-- Window 4's block is its whole array at every point. -/
theorem blk4 (c : Dev nD) (t : Fin cfg0.N) :
    (iblk m c 4 t : Vec F S1x1 .f32) = (V m c main_v28 : S1x1.Idx → Elt F .f32) :=
  funext fun x => read4 c t (V m c main_v28) x

/-- Window 5's block of any array contents is the whole array, at every point. -/
theorem read5 (c : Dev nD) (t : Fin cfg0.N) (A : S1x429.Idx → Elt F .f32) (x : S1x429.Idx) :
    (((cfg0.win 5).blk t).view.read (Elt F) A : Vec F S1x429 .f32) x = A x := by
  obtain ⟨e0, e1⟩ := idx_w5 t
  rw [View.read_apply]
  refine congrArg A (funext fun a => Fin.ext ?_)
  match a with
  | ⟨0, _⟩ => show win0_5.index t (0 : Fin 2) * 1 + 1 * (x 0).val = (x 0).val; rw [e0]; omega
  | ⟨1, _⟩ => show win0_5.index t (1 : Fin 2) * 429 + 1 * (x 1).val = (x 1).val; rw [e1]; omega

/-- Window 5's block is its whole array at every point. -/
theorem blk5 (c : Dev nD) (t : Fin cfg0.N) :
    (iblk m c 5 t : Vec F S1x429 .f32) = (V m c main_v39 : S1x429.Idx → Elt F .f32) :=
  funext fun x => read5 c t (V m c main_v39) x

/-- Window 6's block of any array contents is the whole array, at every point. -/
theorem read6 (c : Dev nD) (t : Fin cfg0.N) (A : S1x429.Idx → Elt F .f32) (x : S1x429.Idx) :
    (((cfg0.win 6).blk t).view.read (Elt F) A : Vec F S1x429 .f32) x = A x := by
  obtain ⟨e0, e1⟩ := idx_w6 t
  rw [View.read_apply]
  refine congrArg A (funext fun a => Fin.ext ?_)
  match a with
  | ⟨0, _⟩ => show win0_6.index t (0 : Fin 2) * 1 + 1 * (x 0).val = (x 0).val; rw [e0]; omega
  | ⟨1, _⟩ => show win0_6.index t (1 : Fin 2) * 429 + 1 * (x 1).val = (x 1).val; rw [e1]; omega

/-- Window 6's block is its whole array at every point. -/
theorem blk6 (c : Dev nD) (t : Fin cfg0.N) :
    (iblk m c 6 t : Vec F S1x429 .f32) = (V m c main_v40 : S1x429.Idx → Elt F .f32) :=
  funext fun x => read6 c t (V m c main_v40) x

/-- Window 7's block of any array contents is the whole array, at every point. -/
theorem read7 (c : Dev nD) (t : Fin cfg0.N) (A : S1x429.Idx → Elt F .f32) (x : S1x429.Idx) :
    (((cfg0.win 7).blk t).view.read (Elt F) A : Vec F S1x429 .f32) x = A x := by
  obtain ⟨e0, e1⟩ := idx_w7 t
  rw [View.read_apply]
  refine congrArg A (funext fun a => Fin.ext ?_)
  match a with
  | ⟨0, _⟩ => show win0_7.index t (0 : Fin 2) * 1 + 1 * (x 0).val = (x 0).val; rw [e0]; omega
  | ⟨1, _⟩ => show win0_7.index t (1 : Fin 2) * 429 + 1 * (x 1).val = (x 1).val; rw [e1]; omega

/-- Window 7's block is its whole array at every point. -/
theorem blk7 (c : Dev nD) (t : Fin cfg0.N) :
    (iblk m c 7 t : Vec F S1x429 .f32) = (V m c main_v41 : S1x429.Idx → Elt F .f32) :=
  funext fun x => read7 c t (V m c main_v41) x

/-- Window 8's block of any array contents is the whole array, at every point. -/
theorem read8 (c : Dev nD) (t : Fin cfg0.N) (A : S1x429.Idx → Elt F .f32) (x : S1x429.Idx) :
    (((cfg0.win 8).blk t).view.read (Elt F) A : Vec F S1x429 .f32) x = A x := by
  obtain ⟨e0, e1⟩ := idx_w8 t
  rw [View.read_apply]
  refine congrArg A (funext fun a => Fin.ext ?_)
  match a with
  | ⟨0, _⟩ => show win0_8.index t (0 : Fin 2) * 1 + 1 * (x 0).val = (x 0).val; rw [e0]; omega
  | ⟨1, _⟩ => show win0_8.index t (1 : Fin 2) * 429 + 1 * (x 1).val = (x 1).val; rw [e1]; omega

/-- Window 8's block is its whole array at every point. -/
theorem blk8 (c : Dev nD) (t : Fin cfg0.N) :
    (iblk m c 8 t : Vec F S1x429 .f32) = (V m c main_v42 : S1x429.Idx → Elt F .f32) :=
  funext fun x => read8 c t (V m c main_v42) x

/-- Window 9's block of any array contents is the whole array, at every point. -/
theorem read9 (c : Dev nD) (t : Fin cfg0.N) (A : S429x128.Idx → Elt F .bf16) (x : S429x128.Idx) :
    (((cfg0.win 9).blk t).view.read (Elt F) A : Vec F S429x128 .bf16) x = A x := by
  obtain ⟨e0, e1⟩ := idx_w9 t
  rw [View.read_apply]
  refine congrArg A (funext fun a => Fin.ext ?_)
  match a with
  | ⟨0, _⟩ => show win0_9.index t (0 : Fin 2) * 429 + 1 * (x 0).val = (x 0).val; rw [e0]; omega
  | ⟨1, _⟩ => show win0_9.index t (1 : Fin 2) * 128 + 1 * (x 1).val = (x 1).val; rw [e1]; omega

/-- Window 9's block is its whole array at every point. -/
theorem blk9 (c : Dev nD) (t : Fin cfg0.N) :
    (iblk m c 9 t : Vec F S429x128 .bf16) = (V m c main_v30 : S429x128.Idx → Elt F .bf16) :=
  funext fun x => read9 c t (V m c main_v30) x

/-- Window 10's block of any array contents is the whole array, at every point. -/
theorem read10 (c : Dev nD) (t : Fin cfg0.N) (A : S1x128.Idx → Elt F .f32) (x : S1x128.Idx) :
    (((cfg0.win 10).blk t).view.read (Elt F) A : Vec F S1x128 .f32) x = A x := by
  obtain ⟨e0, e1⟩ := idx_w10 t
  rw [View.read_apply]
  refine congrArg A (funext fun a => Fin.ext ?_)
  match a with
  | ⟨0, _⟩ => show win0_10.index t (0 : Fin 2) * 1 + 1 * (x 0).val = (x 0).val; rw [e0]; omega
  | ⟨1, _⟩ => show win0_10.index t (1 : Fin 2) * 128 + 1 * (x 1).val = (x 1).val; rw [e1]; omega

/-- Window 10's block is its whole array at every point. -/
theorem blk10 (c : Dev nD) (t : Fin cfg0.N) :
    (iblk m c 10 t : Vec F S1x128 .f32) = (V m c main_v35 : S1x128.Idx → Elt F .f32) :=
  funext fun x => read10 c t (V m c main_v35) x

/-- Window 11's block of any array contents is the whole array, at every point. -/
theorem read11 (c : Dev nD) (t : Fin cfg0.N) (A : S1x128.Idx → Elt F .f32) (x : S1x128.Idx) :
    (((cfg0.win 11).blk t).view.read (Elt F) A : Vec F S1x128 .f32) x = A x := by
  obtain ⟨e0, e1⟩ := idx_w11 t
  rw [View.read_apply]
  refine congrArg A (funext fun a => Fin.ext ?_)
  match a with
  | ⟨0, _⟩ => show win0_11.index t (0 : Fin 2) * 1 + 1 * (x 0).val = (x 0).val; rw [e0]; omega
  | ⟨1, _⟩ => show win0_11.index t (1 : Fin 2) * 128 + 1 * (x 1).val = (x 1).val; rw [e1]; omega

/-- Window 11's block is its whole array at every point. -/
theorem blk11 (c : Dev nD) (t : Fin cfg0.N) :
    (iblk m c 11 t : Vec F S1x128 .f32) = (V m c main_v43 : S1x128.Idx → Elt F .f32) :=
  funext fun x => read11 c t (V m c main_v43) x

/-- Window 12's block of any array contents is the whole array, at every point. -/
theorem read12 (c : Dev nD) (t : Fin cfg0.N) (A : S1x128.Idx → Elt F .f32) (x : S1x128.Idx) :
    (((cfg0.win 12).blk t).view.read (Elt F) A : Vec F S1x128 .f32) x = A x := by
  obtain ⟨e0, e1⟩ := idx_w12 t
  rw [View.read_apply]
  refine congrArg A (funext fun a => Fin.ext ?_)
  match a with
  | ⟨0, _⟩ => show win0_12.index t (0 : Fin 2) * 1 + 1 * (x 0).val = (x 0).val; rw [e0]; omega
  | ⟨1, _⟩ => show win0_12.index t (1 : Fin 2) * 128 + 1 * (x 1).val = (x 1).val; rw [e1]; omega

/-- Window 12's block is its whole array at every point. -/
theorem blk12 (c : Dev nD) (t : Fin cfg0.N) :
    (iblk m c 12 t : Vec F S1x128 .f32) = (V m c main_v44 : S1x128.Idx → Elt F .f32) :=
  funext fun x => read12 c t (V m c main_v44) x

/-- Window 13's block of any array contents is the whole array, at every point. -/
theorem read13 (c : Dev nD) (t : Fin cfg0.N) (A : S1x128.Idx → Elt F .f32) (x : S1x128.Idx) :
    (((cfg0.win 13).blk t).view.read (Elt F) A : Vec F S1x128 .f32) x = A x := by
  obtain ⟨e0, e1⟩ := idx_w13 t
  rw [View.read_apply]
  refine congrArg A (funext fun a => Fin.ext ?_)
  match a with
  | ⟨0, _⟩ => show win0_13.index t (0 : Fin 2) * 1 + 1 * (x 0).val = (x 0).val; rw [e0]; omega
  | ⟨1, _⟩ => show win0_13.index t (1 : Fin 2) * 128 + 1 * (x 1).val = (x 1).val; rw [e1]; omega

/-- Window 13's block is its whole array at every point. -/
theorem blk13 (c : Dev nD) (t : Fin cfg0.N) :
    (iblk m c 13 t : Vec F S1x128 .f32) = (V m c main_v45 : S1x128.Idx → Elt F .f32) :=
  funext fun x => read13 c t (V m c main_v45) x

/-- Window 14's block of any array contents is the whole array, at every point. -/
theorem read14 (c : Dev nD) (t : Fin cfg0.N) (A : S1x128.Idx → Elt F .f32) (x : S1x128.Idx) :
    (((cfg0.win 14).blk t).view.read (Elt F) A : Vec F S1x128 .f32) x = A x := by
  obtain ⟨e0, e1⟩ := idx_w14 t
  rw [View.read_apply]
  refine congrArg A (funext fun a => Fin.ext ?_)
  match a with
  | ⟨0, _⟩ => show win0_14.index t (0 : Fin 2) * 1 + 1 * (x 0).val = (x 0).val; rw [e0]; omega
  | ⟨1, _⟩ => show win0_14.index t (1 : Fin 2) * 128 + 1 * (x 1).val = (x 1).val; rw [e1]; omega

/-- Window 14's block is its whole array at every point. -/
theorem blk14 (c : Dev nD) (t : Fin cfg0.N) :
    (iblk m c 14 t : Vec F S1x128 .f32) = (V m c main_v46 : S1x128.Idx → Elt F .f32) :=
  funext fun x => read14 c t (V m c main_v46) x

/-- Window 15's block of any array contents is the whole array, at every point. -/
theorem read15 (c : Dev nD) (t : Fin cfg0.N) (A : S128x64.Idx → Elt F .bf16) (x : S128x64.Idx) :
    (((cfg0.win 15).blk t).view.read (Elt F) A : Vec F S128x64 .bf16) x = A x := by
  obtain ⟨e0, e1⟩ := idx_w15 t
  rw [View.read_apply]
  refine congrArg A (funext fun a => Fin.ext ?_)
  match a with
  | ⟨0, _⟩ => show win0_15.index t (0 : Fin 2) * 128 + 1 * (x 0).val = (x 0).val; rw [e0]; omega
  | ⟨1, _⟩ => show win0_15.index t (1 : Fin 2) * 64 + 1 * (x 1).val = (x 1).val; rw [e1]; omega

/-- Window 15's block is its whole array at every point. -/
theorem blk15 (c : Dev nD) (t : Fin cfg0.N) :
    (iblk m c 15 t : Vec F S128x64 .bf16) = (V m c main_v32 : S128x64.Idx → Elt F .bf16) :=
  funext fun x => read15 c t (V m c main_v32) x

/-- Window 16's block of any array contents is the whole array, at every point. -/
theorem read16 (c : Dev nD) (t : Fin cfg0.N) (A : S1x64.Idx → Elt F .f32) (x : S1x64.Idx) :
    (((cfg0.win 16).blk t).view.read (Elt F) A : Vec F S1x64 .f32) x = A x := by
  obtain ⟨e0, e1⟩ := idx_w16 t
  rw [View.read_apply]
  refine congrArg A (funext fun a => Fin.ext ?_)
  match a with
  | ⟨0, _⟩ => show win0_16.index t (0 : Fin 2) * 1 + 1 * (x 0).val = (x 0).val; rw [e0]; omega
  | ⟨1, _⟩ => show win0_16.index t (1 : Fin 2) * 64 + 1 * (x 1).val = (x 1).val; rw [e1]; omega

/-- Window 16's block is its whole array at every point. -/
theorem blk16 (c : Dev nD) (t : Fin cfg0.N) :
    (iblk m c 16 t : Vec F S1x64 .f32) = (V m c main_v36 : S1x64.Idx → Elt F .f32) :=
  funext fun x => read16 c t (V m c main_v36) x

/-- Window 17's block of any array contents is the whole array, at every point. -/
theorem read17 (c : Dev nD) (t : Fin cfg0.N) (A : S1x64.Idx → Elt F .f32) (x : S1x64.Idx) :
    (((cfg0.win 17).blk t).view.read (Elt F) A : Vec F S1x64 .f32) x = A x := by
  obtain ⟨e0, e1⟩ := idx_w17 t
  rw [View.read_apply]
  refine congrArg A (funext fun a => Fin.ext ?_)
  match a with
  | ⟨0, _⟩ => show win0_17.index t (0 : Fin 2) * 1 + 1 * (x 0).val = (x 0).val; rw [e0]; omega
  | ⟨1, _⟩ => show win0_17.index t (1 : Fin 2) * 64 + 1 * (x 1).val = (x 1).val; rw [e1]; omega

/-- Window 17's block is its whole array at every point. -/
theorem blk17 (c : Dev nD) (t : Fin cfg0.N) :
    (iblk m c 17 t : Vec F S1x64 .f32) = (V m c main_v47 : S1x64.Idx → Elt F .f32) :=
  funext fun x => read17 c t (V m c main_v47) x

/-- Window 18's block of any array contents is the whole array, at every point. -/
theorem read18 (c : Dev nD) (t : Fin cfg0.N) (A : S1x64.Idx → Elt F .f32) (x : S1x64.Idx) :
    (((cfg0.win 18).blk t).view.read (Elt F) A : Vec F S1x64 .f32) x = A x := by
  obtain ⟨e0, e1⟩ := idx_w18 t
  rw [View.read_apply]
  refine congrArg A (funext fun a => Fin.ext ?_)
  match a with
  | ⟨0, _⟩ => show win0_18.index t (0 : Fin 2) * 1 + 1 * (x 0).val = (x 0).val; rw [e0]; omega
  | ⟨1, _⟩ => show win0_18.index t (1 : Fin 2) * 64 + 1 * (x 1).val = (x 1).val; rw [e1]; omega

/-- Window 18's block is its whole array at every point. -/
theorem blk18 (c : Dev nD) (t : Fin cfg0.N) :
    (iblk m c 18 t : Vec F S1x64 .f32) = (V m c main_v48 : S1x64.Idx → Elt F .f32) :=
  funext fun x => read18 c t (V m c main_v48) x

/-- Window 19's block of any array contents is the whole array, at every point. -/
theorem read19 (c : Dev nD) (t : Fin cfg0.N) (A : S1x64.Idx → Elt F .f32) (x : S1x64.Idx) :
    (((cfg0.win 19).blk t).view.read (Elt F) A : Vec F S1x64 .f32) x = A x := by
  obtain ⟨e0, e1⟩ := idx_w19 t
  rw [View.read_apply]
  refine congrArg A (funext fun a => Fin.ext ?_)
  match a with
  | ⟨0, _⟩ => show win0_19.index t (0 : Fin 2) * 1 + 1 * (x 0).val = (x 0).val; rw [e0]; omega
  | ⟨1, _⟩ => show win0_19.index t (1 : Fin 2) * 64 + 1 * (x 1).val = (x 1).val; rw [e1]; omega

/-- Window 19's block is its whole array at every point. -/
theorem blk19 (c : Dev nD) (t : Fin cfg0.N) :
    (iblk m c 19 t : Vec F S1x64 .f32) = (V m c main_v49 : S1x64.Idx → Elt F .f32) :=
  funext fun x => read19 c t (V m c main_v49) x

/-- Window 20's block of any array contents is the whole array, at every point. -/
theorem read20 (c : Dev nD) (t : Fin cfg0.N) (A : S1x64.Idx → Elt F .f32) (x : S1x64.Idx) :
    (((cfg0.win 20).blk t).view.read (Elt F) A : Vec F S1x64 .f32) x = A x := by
  obtain ⟨e0, e1⟩ := idx_w20 t
  rw [View.read_apply]
  refine congrArg A (funext fun a => Fin.ext ?_)
  match a with
  | ⟨0, _⟩ => show win0_20.index t (0 : Fin 2) * 1 + 1 * (x 0).val = (x 0).val; rw [e0]; omega
  | ⟨1, _⟩ => show win0_20.index t (1 : Fin 2) * 64 + 1 * (x 1).val = (x 1).val; rw [e1]; omega

/-- Window 20's block is its whole array at every point. -/
theorem blk20 (c : Dev nD) (t : Fin cfg0.N) :
    (iblk m c 20 t : Vec F S1x64 .f32) = (V m c main_v50 : S1x64.Idx → Elt F .f32) :=
  funext fun x => read20 c t (V m c main_v50) x

/-- Window 21's block of any array contents is the whole array, at every point. -/
theorem read21 (c : Dev nD) (t : Fin cfg0.N) (A : S64x1.Idx → Elt F .bf16) (x : S64x1.Idx) :
    (((cfg0.win 21).blk t).view.read (Elt F) A : Vec F S64x1 .bf16) x = A x := by
  obtain ⟨e0, e1⟩ := idx_w21 t
  rw [View.read_apply]
  refine congrArg A (funext fun a => Fin.ext ?_)
  match a with
  | ⟨0, _⟩ => show win0_21.index t (0 : Fin 2) * 64 + 1 * (x 0).val = (x 0).val; rw [e0]; omega
  | ⟨1, _⟩ => show win0_21.index t (1 : Fin 2) * 1 + 1 * (x 1).val = (x 1).val; rw [e1]; omega

/-- Window 21's block is its whole array at every point. -/
theorem blk21 (c : Dev nD) (t : Fin cfg0.N) :
    (iblk m c 21 t : Vec F S64x1 .bf16) = (V m c main_v34 : S64x1.Idx → Elt F .bf16) :=
  funext fun x => read21 c t (V m c main_v34) x

/-- Window 22's block of any array contents is the whole array, at every point. -/
theorem read22 (c : Dev nD) (t : Fin cfg0.N) (A : S1x1.Idx → Elt F .f32) (x : S1x1.Idx) :
    (((cfg0.win 22).blk t).view.read (Elt F) A : Vec F S1x1 .f32) x = A x := by
  obtain ⟨e0, e1⟩ := idx_w22 t
  rw [View.read_apply]
  refine congrArg A (funext fun a => Fin.ext ?_)
  match a with
  | ⟨0, _⟩ => show win0_22.index t (0 : Fin 2) * 1 + 1 * (x 0).val = (x 0).val; rw [e0]; omega
  | ⟨1, _⟩ => show win0_22.index t (1 : Fin 2) * 1 + 1 * (x 1).val = (x 1).val; rw [e1]; omega

/-- Window 22's block is its whole array at every point. -/
theorem blk22 (c : Dev nD) (t : Fin cfg0.N) :
    (iblk m c 22 t : Vec F S1x1 .f32) = (V m c main_v37 : S1x1.Idx → Elt F .f32) :=
  funext fun x => read22 c t (V m c main_v37) x

/-- Window 23's block of any array contents is the whole array, at every point. -/
theorem read23 (c : Dev nD) (t : Fin cfg0.N) (A : S1x1.Idx → Elt F .f32) (x : S1x1.Idx) :
    (((cfg0.win 23).blk t).view.read (Elt F) A : Vec F S1x1 .f32) x = A x := by
  obtain ⟨e0, e1⟩ := idx_w23 t
  rw [View.read_apply]
  refine congrArg A (funext fun a => Fin.ext ?_)
  match a with
  | ⟨0, _⟩ => show win0_23.index t (0 : Fin 2) * 1 + 1 * (x 0).val = (x 0).val; rw [e0]; omega
  | ⟨1, _⟩ => show win0_23.index t (1 : Fin 2) * 1 + 1 * (x 1).val = (x 1).val; rw [e1]; omega

/-- Window 23's block is its whole array at every point. -/
theorem blk23 (c : Dev nD) (t : Fin cfg0.N) :
    (iblk m c 23 t : Vec F S1x1 .f32) = (V m c main_v38 : S1x1.Idx → Elt F .f32) :=
  funext fun x => read23 c t (V m c main_v38) x

end Cert.KernelIdeal.Blocks

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«136922_j82471962018408_2_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.LibBroadcastReads.lean ====
/-
  The host's `broadcast_in_dim` in the few arrangements a node-by-feature computation uses, read at an index.

  * a vector [n] laid out as a column [n, 1] reads, at (r, 0), the vector at r;
  * a column [n, 1] broadcast over c lanes reads, at (r, k), the column at (r, 0);
  * a vector [c] laid out as a row [1, c] reads, at (0, k), the vector at k;
  * a row [1, c] broadcast over n rows reads, at (r, k), the row at (0, k);
  * a scalar broadcast to any shape reads, everywhere, the scalar.
-/
import Idealize.ShloMosaic.Lib.ValueIdx
import Idealize.ShloMosaic.Lib.Pipeline.Value

noncomputable section

namespace BroadcastReads

open Idealize.ShloMosaic Idealize.ShloMosaic.ValueIdx

variable {α : Type} {n c : Nat}

/-- In an axis of length n read at r: either n = 1 and r = 0, or the coordinate is r. -/
theorem coord_or_unit (r : Fin n) : r.val = if n = 1 then 0 else r.val := by
  by_cases h : n = 1
  · rw [if_pos h]; have := r.isLt; omega
  · rw [if_neg h]

/-- A vector laid out as a column. -/
theorem vec_to_col (v : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h v (ix2 r u) = v (ix1 r) :=
  broadcastInDim_apply ![0] h v (ix2 r u) (ix1 r) (fun a => match a with
    | ⟨0, _⟩ => by show r.val = if n = 1 then 0 else r.val; exact coord_or_unit r)

/-- A column broadcast over the lanes. -/
theorem col_to_lanes (v : (⟨2, ![n, 1]⟩ : Shape).Idx → α) (h : (⟨2, ![n, 1]⟩ : Shape).BroadcastsInDim ⟨2, ![n, c]⟩ ![0, 1])
    (r : Fin n) (k : Fin c) : broadcastInDim ⟨2, ![n, c]⟩ ![0, 1] h v (ix2 r k) = v (ix2 r (0 : Fin 1)) :=
  broadcastInDim_apply ![0, 1] h v (ix2 r k) (ix2 r (0 : Fin 1)) (fun a => match a with
    | ⟨0, _⟩ => by show r.val = if n = 1 then 0 else r.val; exact coord_or_unit r
    | ⟨1, _⟩ => by show 0 = if (1 : Nat) = 1 then 0 else k.val; rw [if_pos rfl])

/-- A vector laid out as a row. -/
theorem vec_to_row (v : (⟨1, ![c]⟩ : Shape).Idx → α) (h : (⟨1, ![c]⟩ : Shape).BroadcastsInDim ⟨2, ![1, c]⟩ ![1])
    (u : Fin 1) (k : Fin c) : broadcastInDim ⟨2, ![1, c]⟩ ![1] h v (ix2 u k) = v (ix1 k) :=
  broadcastInDim_apply ![1] h v (ix2 u k) (ix1 k) (fun a => match a with
    | ⟨0, _⟩ => by show k.val = if c = 1 then 0 else k.val; exact coord_or_unit k)

/-- A row broadcast over the rows. -/
theorem row_to_rows (v : (⟨2, ![1, c]⟩ : Shape).Idx → α) (h : (⟨2, ![1, c]⟩ : Shape).BroadcastsInDim ⟨2, ![n, c]⟩ ![0, 1])
    (r : Fin n) (k : Fin c) : broadcastInDim ⟨2, ![n, c]⟩ ![0, 1] h v (ix2 r k) = v (ix2 (0 : Fin 1) k) :=
  broadcastInDim_apply ![0, 1] h v (ix2 r k) (ix2 (0 : Fin 1) k) (fun a => match a with
    | ⟨0, _⟩ => by show 0 = if (1 : Nat) = 1 then 0 else r.val; rw [if_pos rfl]
    | ⟨1, _⟩ => by show k.val = if c = 1 then 0 else k.val; exact coord_or_unit k)

/-- A scalar broadcast to a shape. -/
theorem scalar_to (s : Shape) (z : (⟨0, ![]⟩ : Shape).Idx → α) (h : (⟨0, ![]⟩ : Shape).BroadcastsInDim s ![]) (i : s.Idx) :
    broadcastInDim s ![] h z i = z ix0 :=
  broadcastInDim_apply ![] h z i ix0 (fun a => a.elim0)

end BroadcastReads

end
-- ==== Proof.LibBatchNorm.lean ====
/-
  Inference-mode batch normalisation and the rectifier, as whole-array functions over the extended reals.

  For a [P, Q] array x and per-column parameters γ, β, μ, v of length Q,
      bn ε x γ β μ v (p, q) = (x (p, q) − μ q) · rsqrt (v q + ε) · γ q + β q,
  and relu x = max x 0 entry by entry.  A kernel spells the normalisation with [1, Q] parameter blocks broadcast down
  the rows; a host program spells it with length-Q vectors broadcast to [1, Q] and then to [P, Q].  Both spellings
  are `bn`.  The value at (p, q) depends on row p of x only (`bn_congr`, `relu_congr`), which is what lets a block
  of rows of a tower of dense layers, normalisations and rectifiers be computed from a block of rows.
-/
import Idealize.ShloMosaic.Lib.ValueIdx
import Idealize.ShloMosaic.Lib.Pipeline.Value
import Idealize.ShloMosaic.PureOps.Ideal.Laws
import proofs.«136922_j82471962018408_2_alg».proof.Proof.LibDenseLayer
import proofs.«136922_j82471962018408_2_alg».proof.Proof.LibBroadcastReads

noncomputable section

namespace NormTower

open Idealize.ShloMosaic Idealize.ShloMosaic.ValueIdx DenseLayer

variable {P P' K Q : Nat}

/-- Normalisation by fixed statistics: (x − μ) · rsqrt (v + ε) · γ + β, column by column. -/
def bn (ε : EReal) (x : (⟨2, ![P, Q]⟩ : Shape).Idx → EReal) (γ β μ v : Fin Q → EReal) : (⟨2, ![P, Q]⟩ : Shape).Idx → EReal :=
  fun i => (x i - μ (i 1)) * Ideal.rsqrt (v (i 1) + ε) * γ (i 1) + β (i 1)

theorem bn_ix2 (ε : EReal) (x : (⟨2, ![P, Q]⟩ : Shape).Idx → EReal) (γ β μ v : Fin Q → EReal) (p : Fin P) (q : Fin Q) :
    bn ε x γ β μ v (ix2 p q) = (x (ix2 p q) - μ q) * Ideal.rsqrt (v q + ε) * γ q + β q := rfl

/-- The rectifier, entry by entry. -/
def relu {s : Shape} (x : s.Idx → EReal) : s.Idx → EReal := fun i => max (x i) 0

/-- A [1, Q] block read as a row. -/
def rowOf (b : (⟨2, ![1, Q]⟩ : Shape).Idx → EReal) : Fin Q → EReal := fun q => b (ix2 (0 : Fin 1) q)

/-- A length-Q vector read by its coordinate. -/
def vecOf (b : (⟨1, ![Q]⟩ : Shape).Idx → EReal) : Fin Q → EReal := fun q => b (ix1 q)

/-- Entry (p, q) of the normalisation reads entry (p, q) of its input and entry q of each parameter. -/
theorem bn_congr {ε : EReal} {x : (⟨2, ![P, Q]⟩ : Shape).Idx → EReal} {x' : (⟨2, ![P', Q]⟩ : Shape).Idx → EReal}
    {γ β μ v γ' β' μ' v' : Fin Q → EReal} {p : Fin P} {p' : Fin P'} {q : Fin Q}
    (hx : x (ix2 p q) = x' (ix2 p' q)) (hγ : γ q = γ' q) (hβ : β q = β' q) (hμ : μ q = μ' q) (hv : v q = v' q) :
    bn ε x γ β μ v (ix2 p q) = bn ε x' γ' β' μ' v' (ix2 p' q) := by
  rw [bn_ix2, bn_ix2, hx, hγ, hβ, hμ, hv]

theorem relu_congr {x : (⟨2, ![P, Q]⟩ : Shape).Idx → EReal} {x' : (⟨2, ![P', Q]⟩ : Shape).Idx → EReal} {p : Fin P} {p' : Fin P'}
    {q : Fin Q} (hx : x (ix2 p q) = x' (ix2 p' q)) : relu x (ix2 p q) = relu x' (ix2 p' q) := by
  show max (x (ix2 p q)) 0 = max (x' (ix2 p' q)) 0
  rw [hx]

/-- A [1, Q] block broadcast down P rows, read at (p, q). -/
theorem rows_apply (y : (⟨2, ![1, Q]⟩ : Shape).Idx → EReal) (hbc : (⟨2, ![1, Q]⟩ : Shape).Broadcasts ⟨2, ![P, Q]⟩) (p : Fin P) (q : Fin Q) :
    broadcastTo ⟨2, ![P, Q]⟩ y hbc (ix2 p q) = y (ix2 (0 : Fin 1) q) :=
  broadcastTo_apply y hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)

/-- A length-Q vector broadcast to [1, Q] and then to [P, Q], read at (p, q). -/
theorem vec_rows_apply (y : (⟨1, ![Q]⟩ : Shape).Idx → EReal) (h1 : (⟨1, ![Q]⟩ : Shape).BroadcastsInDim ⟨2, ![1, Q]⟩ ![1])
    (h2 : (⟨2, ![1, Q]⟩ : Shape).BroadcastsInDim ⟨2, ![P, Q]⟩ ![0, 1]) (p : Fin P) (q : Fin Q) :
    broadcastInDim ⟨2, ![P, Q]⟩ ![0, 1] h2 (broadcastInDim ⟨2, ![1, Q]⟩ ![1] h1 y) (ix2 p q) = y (ix1 q) :=
  (BroadcastReads.row_to_rows _ h2 p q).trans (BroadcastReads.vec_to_row y h1 0 q)

/-- THE KERNEL'S SPELLING of the normalisation: [1, Q] parameter blocks broadcast down the rows, the offset ε a splat. -/
theorem kernel_bn (w : BitVec 32) (x : FVec Ideal ⟨2, ![P, Q]⟩ .f32) (γ β μ v : FVec Ideal ⟨2, ![1, Q]⟩ .f32)
    (hbc : (⟨2, ![1, Q]⟩ : Shape).Broadcasts ⟨2, ![P, Q]⟩) :
    addf (mulf (mulf (subf x (broadcastTo ⟨2, ![P, Q]⟩ μ hbc))
        (broadcastTo ⟨2, ![P, Q]⟩ (rsqrt (addf v (broadcast ⟨2, ![1, Q]⟩ (Scalar.ofBits (F := Ideal) .f32 w)))) hbc))
        (broadcastTo ⟨2, ![P, Q]⟩ γ hbc)) (broadcastTo ⟨2, ![P, Q]⟩ β hbc)
    = bn (Ideal.ofBits .f32 w) x (rowOf γ) (rowOf β) (rowOf μ) (rowOf v) := by
  funext j
  obtain ⟨p, q, rfl⟩ : ∃ (p : Fin P) (q : Fin Q), j = ix2 p q := ⟨j 0, j 1, eq_ix2 j⟩
  show (x (ix2 p q) - broadcastTo ⟨2, ![P, Q]⟩ μ hbc (ix2 p q))
      * broadcastTo ⟨2, ![P, Q]⟩ (rsqrt (addf v (broadcast ⟨2, ![1, Q]⟩ (Scalar.ofBits (F := Ideal) .f32 w)))) hbc (ix2 p q)
      * broadcastTo ⟨2, ![P, Q]⟩ γ hbc (ix2 p q) + broadcastTo ⟨2, ![P, Q]⟩ β hbc (ix2 p q) = _
  rw [rows_apply, rows_apply, rows_apply, rows_apply]
  rfl

/-- THE HOST'S SPELLING of the normalisation: length-Q parameter vectors broadcast to [1, Q] and then to [P, Q], the
    offset ε a broadcast scalar constant. -/
theorem host_bn (w : BitVec 32) (x : FVec Ideal ⟨2, ![P, Q]⟩ .f32) (γ β μ v : FVec Ideal ⟨1, ![Q]⟩ .f32)
    (h0 : (⟨0, ![]⟩ : Shape).BroadcastsInDim ⟨1, ![Q]⟩ ![])
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (mulf (mulf (subf x (broadcastInDim ⟨2, ![P, Q]⟩ ![0, 1] h2 (broadcastInDim ⟨2, ![1, Q]⟩ ![1] h1 μ)))
        (broadcastInDim ⟨2, ![P, Q]⟩ ![0, 1] h2 (broadcastInDim ⟨2, ![1, Q]⟩ ![1] h1
          (Host.rsqrt (addf v (broadcastInDim ⟨1, ![Q]⟩ ![] h0 (constant (F := Ideal) ⟨0, ![]⟩ .f32 w)))))))
        (broadcastInDim ⟨2, ![P, Q]⟩ ![0, 1] h2 (broadcastInDim ⟨2, ![1, Q]⟩ ![1] h1 γ)))
      (broadcastInDim ⟨2, ![P, Q]⟩ ![0, 1] h2 (broadcastInDim ⟨2, ![1, Q]⟩ ![1] h1 β))
    = bn (Ideal.ofBits .f32 w) x (vecOf γ) (vecOf β) (vecOf μ) (vecOf v) := by
  funext j
  obtain ⟨p, q, rfl⟩ : ∃ (p : Fin P) (q : Fin Q), j = ix2 p q := ⟨j 0, j 1, eq_ix2 j⟩
  show (x (ix2 p q) - broadcastInDim ⟨2, ![P, Q]⟩ ![0, 1] h2 (broadcastInDim ⟨2, ![1, Q]⟩ ![1] h1 μ) (ix2 p q))
      * broadcastInDim ⟨2, ![P, Q]⟩ ![0, 1] h2 (broadcastInDim ⟨2, ![1, Q]⟩ ![1] h1
          (Host.rsqrt (addf v (broadcastInDim ⟨1, ![Q]⟩ ![] h0 (constant (F := Ideal) ⟨0, ![]⟩ .f32 w))))) (ix2 p q)
      * broadcastInDim ⟨2, ![P, Q]⟩ ![0, 1] h2 (broadcastInDim ⟨2, ![1, Q]⟩ ![1] h1 γ) (ix2 p q)
      + broadcastInDim ⟨2, ![P, Q]⟩ ![0, 1] h2 (broadcastInDim ⟨2, ![1, Q]⟩ ![1] h1 β) (ix2 p q) = _
  rw [vec_rows_apply, vec_rows_apply, vec_rows_apply, vec_rows_apply]
  show (x (ix2 p q) - μ (ix1 q)) * Ideal.rsqrt (v (ix1 q) + broadcastInDim ⟨1, ![Q]⟩ ![] h0 (constant (F := Ideal) ⟨0, ![]⟩ .f32 w) (ix1 q))
      * γ (ix1 q) + β (ix1 q) = _
  rw [BroadcastReads.scalar_to]
  rfl

/-- THE KERNEL'S SPELLING of the rectifier: the maximum with a splat of the zero word. -/
theorem kernel_relu {s : Shape} (x : FVec Ideal s .f32) :
    maximumf x (broadcast s (Scalar.ofBits (F := Ideal) .f32 0x00000000#32)) = relu x := by
  funext i
  show max (x i) (Ideal.ofBits .f32 0x00000000#32) = max (x i) 0
  rw [Ideal.ofBits_zero_f32]

/-- THE HOST'S SPELLING of the rectifier: the maximum with a broadcast zero constant. -/
theorem host_relu {s : Shape} (x : FVec Ideal s .f32) (h : (⟨0, ![]⟩ : Shape).BroadcastsInDim s ![]) :
    maximumf x (broadcastInDim s ![] h (constant (F := Ideal) ⟨0, ![]⟩ .f32 0x00000000#32)) = relu x := by
  funext i
  show max (x i) (broadcastInDim s ![] h (constant (F := Ideal) ⟨0, ![]⟩ .f32 0x00000000#32) i) = max (x i) 0
  rw [BroadcastReads.scalar_to]
  show max (x i) (Ideal.ofBits .f32 0x00000000#32) = max (x i) 0
  rw [Ideal.ofBits_zero_f32]

/-- THE KERNEL'S SPELLING of a dense layer whose weights arrive already narrowed: the product of the input rounded to
    bf16 with the weight block, accumulated into zero, plus the row broadcast of a [1, Q] bias block. -/
theorem kernel_dense_w {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .bf16) (b : FVec Ideal ⟨2, ![1, Q]⟩ .f32)
    (hr : FTy.bits .bf16 < FTy.bits .f32) (hbc : (⟨2, ![1, Q]⟩ : Shape).Broadcasts ⟨2, ![P, Q]⟩) :
    addf (matmul d none (truncf .bf16 x hr) W (constant ⟨2, ![P, Q]⟩ .f32 0x00000000#32)) (broadcastTo ⟨2, ![P, Q]⟩ b hbc)
    = dense x W (rowOf b) := by
  funext j
  obtain ⟨p, q, rfl⟩ : ∃ (p : Fin P) (q : Fin Q), j = ix2 p q := ⟨j 0, j 1, eq_ix2 j⟩
  show FloatOps.matmul d none (truncf .bf16 x hr) W (constant ⟨2, ![P, Q]⟩ .f32 0x00000000#32) (ix2 p q)
      + broadcastTo ⟨2, ![P, Q]⟩ b hbc (ix2 p q) = _
  rw [PlainDot.matmul_zero_apply hd, rows_apply]
  rfl

/-- The host's dense layer in the vocabulary of this file. -/
theorem host_dense_v {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (vecOf b) := host_dense hd x W b h1 h2

end NormTower

end
-- ==== Proof.LibRowBroadcast.lean ====
/-
  Reading a row vector that is laid along the lanes at an index.

  A vector `[b]` cast to a one-row array `[1, b]` holds, at `(0, k)`, the vector's entry `k`; such a row broadcast over `a` rows,
  `[1, b] → [a, b]`, holds at `(r, k)` the row's entry `k`, whatever the row number `r`.  Each lemma reads one of these at an index
  written with literal coordinates.
-/
import Idealize.ShloMosaic.Lib.ValueIdx
import Idealize.ShloMosaic.Lib.ValueLayout
import Idealize.ShloMosaic.Lib.Pipeline.Value

noncomputable section

namespace RowBroadcast

open Idealize.ShloMosaic Idealize.ShloMosaic.ValueIdx

variable {α : Type} {a b : ℕ}

/-- A vector `[b]` cast to a row `[1, b]` reads, at `(u, k)`, the vector at `k`. -/
theorem shapeCast_b_1b_apply (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A row `[1, b]` broadcast over `a` rows reads, at `(r, k)`, the row at `k`. -/
theorem broadcastTo_1b_ab_apply (v : (⟨2, ![1, b]⟩ : Shape).Idx → α) (h : (⟨2, ![1, b]⟩ : Shape).Broadcasts ⟨2, ![a, b]⟩)
    (r : Fin a) (k : Fin b) : broadcastTo ⟨2, ![a, b]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if b = 1 then 0 else k.val
    split
    · have := k.isLt; omega
    · rfl

end RowBroadcast

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.ArraysMain.lean ====
/-
  The large arrays the kernel's windows stage, as the region finds them, in terms of the program's arguments.

  The deep-feature array is the gathered embedding rows, flattened, joined with the dense features; the linear array is
  the gathered linear terms; both are spelt exactly as the reference spells them (a change of float format is the
  identity on the extended reals).  The 0/1 matrix is a matrix of bits converted to floats.  The weight matrices are the
  transposed arguments.
-/
import proofs.«136922_j82471962018408_2_alg».proof.Proof.FrameKernelIdeal
import proofs.«136922_j82471962018408_2_alg».proof.Proof.Gen.ReferenceIdeal.Read
import proofs.«136922_j82471962018408_2_alg».proof.Proof.Blocks
import proofs.«136922_j82471962018408_2_alg».proof.Proof.LibBatchNorm
import proofs.«136922_j82471962018408_2_alg».proof.Proof.LibRowBroadcast
import proofs.«136922_j82471962018408_2_alg».proof.Proof.LibKeepDims
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Arrays

open Cert.KernelIdeal Cert.KernelIdeal.Gen NormTower

variable (m : (ℓ : Loc nD τ sig) → Buf (Elt Ideal) ℓ)

/-- The deep-feature array: the reference's joined feature array of the same arguments. -/
theorem deep_eq (c : Dev nD) : (V m c main_v22 : S16384x429.Idx → EReal) = Cert.ReferenceIdeal.Read.val_main_v35 (F := Ideal) (m ((c : Thread nD τ).loc main_arg0)) (m ((c : Thread nD τ).loc main_arg1)) (m ((c : Thread nD τ).loc main_arg2)) := by
  dsimp only [V, V0]
  simp only [hostOps0, hostOps0_1, hostOps0_2, hostOps0_3, List.flatten_cons, List.flatten_nil, List.append_nil, List.cons_append, List.nil_append]
  after_results_simp
  rfl

/-- The linear-term array: the reference's gathered linear terms of the same arguments. -/
theorem lin_eq (c : Dev nD) : (V m c main_v20 : S16384x26.Idx → EReal) = Cert.ReferenceIdeal.Read.val_main_v17 (F := Ideal) (m ((c : Thread nD τ).loc main_arg0)) (m ((c : Thread nD τ).loc main_arg3)) := by
  dsimp only [V, V0]
  simp only [hostOps0, hostOps0_1, hostOps0_2, hostOps0_3, List.flatten_cons, List.flatten_nil, List.append_nil, List.cons_append, List.nil_append]
  after_results_simp
  rfl

/-- The 0/1 matrix is the conversion of a matrix of bits. -/
theorem onehot_eq (c : Dev nD) : (V m c main_v25 : S416x16.Idx → EReal) = uitofp (F := Ideal) .bf16 (V m c main_call1_v4 : IVec S416x16 1) := by
  dsimp only [V, V0]
  simp only [hostOps0, hostOps0_1, hostOps0_2, hostOps0_3, List.flatten_cons, List.flatten_nil, List.append_nil, List.cons_append, List.nil_append]
  after_results_simp
  rfl

/-- The weight column of the dense features' linear term. -/
theorem ldw_eq (c : Dev nD) : (V m c main_v27 : S13x1.Idx → EReal) = shapeCast S13x1 (m ((c : Thread nD τ).loc main_arg4)) shapeCasts_S13_S13x1 := by
  dsimp only [V, V0]
  simp only [hostOps0, hostOps0_1, hostOps0_2, hostOps0_3, List.flatten_cons, List.flatten_nil, List.append_nil, List.cons_append, List.nil_append]
  after_results_simp
  rfl

/-- The first layer's weights, transposed. -/
theorem w1_eq (c : Dev nD) : (V m c main_v30 : S429x128.Idx → EReal) = Cert.ReferenceIdeal.Read.val_main_v51 (F := Ideal) (m ((c : Thread nD τ).loc main_arg10)) := by
  dsimp only [V, V0]
  simp only [hostOps0, hostOps0_1, hostOps0_2, hostOps0_3, List.flatten_cons, List.flatten_nil, List.append_nil, List.cons_append, List.nil_append]
  after_results_simp
  rfl

/-- The second layer's weights, transposed. -/
theorem w2_eq (c : Dev nD) : (V m c main_v32 : S128x64.Idx → EReal) = Cert.ReferenceIdeal.Read.val_main_v72 (F := Ideal) (m ((c : Thread nD τ).loc main_arg16)) := by
  dsimp only [V, V0]
  simp only [hostOps0, hostOps0_1, hostOps0_2, hostOps0_3, List.flatten_cons, List.flatten_nil, List.append_nil, List.cons_append, List.nil_append]
  after_results_simp
  rfl

/-- The output layer's weights, transposed. -/
theorem w3_eq (c : Dev nD) : (V m c main_v34 : S64x1.Idx → EReal) = Cert.ReferenceIdeal.Read.val_main_v93 (F := Ideal) (m ((c : Thread nD τ).loc main_arg22)) := by
  dsimp only [V, V0]
  simp only [hostOps0, hostOps0_1, hostOps0_2, hostOps0_3, List.flatten_cons, List.flatten_nil, List.append_nil, List.cons_append, List.nil_append]
  after_results_simp
  rfl

/-- The weight column of the dense features' linear term, read at an entry. -/
theorem ldw_at (c : Dev nD) (t : Fin cfg0.N) (d : Fin 13) :
    (iblk m c 3 t : Vec Ideal S13x1 .bf16) (ix2 d (0 : Fin 1)) = ((m ((c : Thread nD τ).loc main_arg4)) : S13.Idx → EReal) (ix1 d) := by
  rw [Blocks.blk3 m c t, ldw_eq]
  exact KeepDims.shapeCast_a_a1_apply _ _ d 0

end Cert.KernelIdeal.Arrays

end
-- ==== Proof.ArraysRowsA.lean ====
/-
  The parameter rows of the linear part, the first normalisation and the first layer: each window stages a length-Q
  argument vector reshaped to one row, and its block read as a row is the vector read by its coordinate.
-/
import proofs.«136922_j82471962018408_2_alg».proof.Proof.FrameKernelIdeal
import proofs.«136922_j82471962018408_2_alg».proof.Proof.Gen.ReferenceIdeal.Read
import proofs.«136922_j82471962018408_2_alg».proof.Proof.Blocks
import proofs.«136922_j82471962018408_2_alg».proof.Proof.LibBatchNorm
import proofs.«136922_j82471962018408_2_alg».proof.Proof.LibRowBroadcast
import proofs.«136922_j82471962018408_2_alg».proof.Proof.LibKeepDims
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Arrays

open Cert.KernelIdeal Cert.KernelIdeal.Gen NormTower

variable (m : (ℓ : Loc nD τ sig) → Buf (Elt Ideal) ℓ)

/-- Window 4 stages argument 5 reshaped to one row. -/
theorem v_w4 (c : Dev nD) : (V m c main_v28 : S1x1.Idx → EReal) = shapeCast S1x1 (m ((c : Thread nD τ).loc main_arg5)) shapeCasts_S1_S1x1 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w4 (c : Dev nD) (t : Fin cfg0.N) : rowOf (iblk m c 4 t : Vec Ideal S1x1 .f32) = vecOf ((m ((c : Thread nD τ).loc main_arg5)) : S1.Idx → EReal) := by
  funext q
  show (iblk m c 4 t : Vec Ideal S1x1 .f32) (ix2 (0 : Fin 1) q) = _
  rw [Blocks.blk4 m c t, v_w4]
  exact RowBroadcast.shapeCast_b_1b_apply _ _ 0 q

/-- Window 5 stages argument 6 reshaped to one row. -/
theorem v_w5 (c : Dev nD) : (V m c main_v39 : S1x429.Idx → EReal) = shapeCast S1x429 (m ((c : Thread nD τ).loc main_arg6)) shapeCasts_S429_S1x429 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w5 (c : Dev nD) (t : Fin cfg0.N) : rowOf (iblk m c 5 t : Vec Ideal S1x429 .f32) = vecOf ((m ((c : Thread nD τ).loc main_arg6)) : S429.Idx → EReal) := by
  funext q
  show (iblk m c 5 t : Vec Ideal S1x429 .f32) (ix2 (0 : Fin 1) q) = _
  rw [Blocks.blk5 m c t, v_w5]
  exact RowBroadcast.shapeCast_b_1b_apply _ _ 0 q

/-- Window 6 stages argument 7 reshaped to one row. -/
theorem v_w6 (c : Dev nD) : (V m c main_v40 : S1x429.Idx → EReal) = shapeCast S1x429 (m ((c : Thread nD τ).loc main_arg7)) shapeCasts_S429_S1x429 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w6 (c : Dev nD) (t : Fin cfg0.N) : rowOf (iblk m c 6 t : Vec Ideal S1x429 .f32) = vecOf ((m ((c : Thread nD τ).loc main_arg7)) : S429.Idx → EReal) := by
  funext q
  show (iblk m c 6 t : Vec Ideal S1x429 .f32) (ix2 (0 : Fin 1) q) = _
  rw [Blocks.blk6 m c t, v_w6]
  exact RowBroadcast.shapeCast_b_1b_apply _ _ 0 q

/-- Window 7 stages argument 8 reshaped to one row. -/
theorem v_w7 (c : Dev nD) : (V m c main_v41 : S1x429.Idx → EReal) = shapeCast S1x429 (m ((c : Thread nD τ).loc main_arg8)) shapeCasts_S429_S1x429 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w7 (c : Dev nD) (t : Fin cfg0.N) : rowOf (iblk m c 7 t : Vec Ideal S1x429 .f32) = vecOf ((m ((c : Thread nD τ).loc main_arg8)) : S429.Idx → EReal) := by
  funext q
  show (iblk m c 7 t : Vec Ideal S1x429 .f32) (ix2 (0 : Fin 1) q) = _
  rw [Blocks.blk7 m c t, v_w7]
  exact RowBroadcast.shapeCast_b_1b_apply _ _ 0 q

/-- Window 8 stages argument 9 reshaped to one row. -/
theorem v_w8 (c : Dev nD) : (V m c main_v42 : S1x429.Idx → EReal) = shapeCast S1x429 (m ((c : Thread nD τ).loc main_arg9)) shapeCasts_S429_S1x429 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w8 (c : Dev nD) (t : Fin cfg0.N) : rowOf (iblk m c 8 t : Vec Ideal S1x429 .f32) = vecOf ((m ((c : Thread nD τ).loc main_arg9)) : S429.Idx → EReal) := by
  funext q
  show (iblk m c 8 t : Vec Ideal S1x429 .f32) (ix2 (0 : Fin 1) q) = _
  rw [Blocks.blk8 m c t, v_w8]
  exact RowBroadcast.shapeCast_b_1b_apply _ _ 0 q

/-- Window 10 stages argument 11 reshaped to one row. -/
theorem v_w10 (c : Dev nD) : (V m c main_v35 : S1x128.Idx → EReal) = shapeCast S1x128 (m ((c : Thread nD τ).loc main_arg11)) shapeCasts_S128_S1x128 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w10 (c : Dev nD) (t : Fin cfg0.N) : rowOf (iblk m c 10 t : Vec Ideal S1x128 .f32) = vecOf ((m ((c : Thread nD τ).loc main_arg11)) : S128.Idx → EReal) := by
  funext q
  show (iblk m c 10 t : Vec Ideal S1x128 .f32) (ix2 (0 : Fin 1) q) = _
  rw [Blocks.blk10 m c t, v_w10]
  exact RowBroadcast.shapeCast_b_1b_apply _ _ 0 q

/-- Window 11 stages argument 12 reshaped to one row. -/
theorem v_w11 (c : Dev nD) : (V m c main_v43 : S1x128.Idx → EReal) = shapeCast S1x128 (m ((c : Thread nD τ).loc main_arg12)) shapeCasts_S128_S1x128 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w11 (c : Dev nD) (t : Fin cfg0.N) : rowOf (iblk m c 11 t : Vec Ideal S1x128 .f32) = vecOf ((m ((c : Thread nD τ).loc main_arg12)) : S128.Idx → EReal) := by
  funext q
  show (iblk m c 11 t : Vec Ideal S1x128 .f32) (ix2 (0 : Fin 1) q) = _
  rw [Blocks.blk11 m c t, v_w11]
  exact RowBroadcast.shapeCast_b_1b_apply _ _ 0 q

/-- Window 12 stages argument 13 reshaped to one row. -/
theorem v_w12 (c : Dev nD) : (V m c main_v44 : S1x128.Idx → EReal) = shapeCast S1x128 (m ((c : Thread nD τ).loc main_arg13)) shapeCasts_S128_S1x128 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w12 (c : Dev nD) (t : Fin cfg0.N) : rowOf (iblk m c 12 t : Vec Ideal S1x128 .f32) = vecOf ((m ((c : Thread nD τ).loc main_arg13)) : S128.Idx → EReal) := by
  funext q
  show (iblk m c 12 t : Vec Ideal S1x128 .f32) (ix2 (0 : Fin 1) q) = _
  rw [Blocks.blk12 m c t, v_w12]
  exact RowBroadcast.shapeCast_b_1b_apply _ _ 0 q

/-- Window 13 stages argument 14 reshaped to one row. -/
theorem v_w13 (c : Dev nD) : (V m c main_v45 : S1x128.Idx → EReal) = shapeCast S1x128 (m ((c : Thread nD τ).loc main_arg14)) shapeCasts_S128_S1x128 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w13 (c : Dev nD) (t : Fin cfg0.N) : rowOf (iblk m c 13 t : Vec Ideal S1x128 .f32) = vecOf ((m ((c : Thread nD τ).loc main_arg14)) : S128.Idx → EReal) := by
  funext q
  show (iblk m c 13 t : Vec Ideal S1x128 .f32) (ix2 (0 : Fin 1) q) = _
  rw [Blocks.blk13 m c t, v_w13]
  exact RowBroadcast.shapeCast_b_1b_apply _ _ 0 q

/-- Window 14 stages argument 15 reshaped to one row. -/
theorem v_w14 (c : Dev nD) : (V m c main_v46 : S1x128.Idx → EReal) = shapeCast S1x128 (m ((c : Thread nD τ).loc main_arg15)) shapeCasts_S128_S1x128 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w14 (c : Dev nD) (t : Fin cfg0.N) : rowOf (iblk m c 14 t : Vec Ideal S1x128 .f32) = vecOf ((m ((c : Thread nD τ).loc main_arg15)) : S128.Idx → EReal) := by
  funext q
  show (iblk m c 14 t : Vec Ideal S1x128 .f32) (ix2 (0 : Fin 1) q) = _
  rw [Blocks.blk14 m c t, v_w14]
  exact RowBroadcast.shapeCast_b_1b_apply _ _ 0 q

end Cert.KernelIdeal.Arrays

end
-- ==== Proof.ArraysRowsB.lean ====
/-
  The parameter rows of the second layer, the output layer and the global bias: each window stages a length-Q argument
  vector reshaped to one row, and its block read as a row is the vector read by its coordinate.
-/
import proofs.«136922_j82471962018408_2_alg».proof.Proof.FrameKernelIdeal
import proofs.«136922_j82471962018408_2_alg».proof.Proof.Gen.ReferenceIdeal.Read
import proofs.«136922_j82471962018408_2_alg».proof.Proof.Blocks
import proofs.«136922_j82471962018408_2_alg».proof.Proof.LibBatchNorm
import proofs.«136922_j82471962018408_2_alg».proof.Proof.LibRowBroadcast
import proofs.«136922_j82471962018408_2_alg».proof.Proof.LibKeepDims
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Arrays

open Cert.KernelIdeal Cert.KernelIdeal.Gen NormTower

variable (m : (ℓ : Loc nD τ sig) → Buf (Elt Ideal) ℓ)

/-- Window 16 stages argument 17 reshaped to one row. -/
theorem v_w16 (c : Dev nD) : (V m c main_v36 : S1x64.Idx → EReal) = shapeCast S1x64 (m ((c : Thread nD τ).loc main_arg17)) shapeCasts_S64_S1x64 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w16 (c : Dev nD) (t : Fin cfg0.N) : rowOf (iblk m c 16 t : Vec Ideal S1x64 .f32) = vecOf ((m ((c : Thread nD τ).loc main_arg17)) : S64.Idx → EReal) := by
  funext q
  show (iblk m c 16 t : Vec Ideal S1x64 .f32) (ix2 (0 : Fin 1) q) = _
  rw [Blocks.blk16 m c t, v_w16]
  exact RowBroadcast.shapeCast_b_1b_apply _ _ 0 q

/-- Window 17 stages argument 18 reshaped to one row. -/
theorem v_w17 (c : Dev nD) : (V m c main_v47 : S1x64.Idx → EReal) = shapeCast S1x64 (m ((c : Thread nD τ).loc main_arg18)) shapeCasts_S64_S1x64 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w17 (c : Dev nD) (t : Fin cfg0.N) : rowOf (iblk m c 17 t : Vec Ideal S1x64 .f32) = vecOf ((m ((c : Thread nD τ).loc main_arg18)) : S64.Idx → EReal) := by
  funext q
  show (iblk m c 17 t : Vec Ideal S1x64 .f32) (ix2 (0 : Fin 1) q) = _
  rw [Blocks.blk17 m c t, v_w17]
  exact RowBroadcast.shapeCast_b_1b_apply _ _ 0 q

/-- Window 18 stages argument 19 reshaped to one row. -/
theorem v_w18 (c : Dev nD) : (V m c main_v48 : S1x64.Idx → EReal) = shapeCast S1x64 (m ((c : Thread nD τ).loc main_arg19)) shapeCasts_S64_S1x64 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w18 (c : Dev nD) (t : Fin cfg0.N) : rowOf (iblk m c 18 t : Vec Ideal S1x64 .f32) = vecOf ((m ((c : Thread nD τ).loc main_arg19)) : S64.Idx → EReal) := by
  funext q
  show (iblk m c 18 t : Vec Ideal S1x64 .f32) (ix2 (0 : Fin 1) q) = _
  rw [Blocks.blk18 m c t, v_w18]
  exact RowBroadcast.shapeCast_b_1b_apply _ _ 0 q

/-- Window 19 stages argument 20 reshaped to one row. -/
theorem v_w19 (c : Dev nD) : (V m c main_v49 : S1x64.Idx → EReal) = shapeCast S1x64 (m ((c : Thread nD τ).loc main_arg20)) shapeCasts_S64_S1x64 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w19 (c : Dev nD) (t : Fin cfg0.N) : rowOf (iblk m c 19 t : Vec Ideal S1x64 .f32) = vecOf ((m ((c : Thread nD τ).loc main_arg20)) : S64.Idx → EReal) := by
  funext q
  show (iblk m c 19 t : Vec Ideal S1x64 .f32) (ix2 (0 : Fin 1) q) = _
  rw [Blocks.blk19 m c t, v_w19]
  exact RowBroadcast.shapeCast_b_1b_apply _ _ 0 q

/-- Window 20 stages argument 21 reshaped to one row. -/
theorem v_w20 (c : Dev nD) : (V m c main_v50 : S1x64.Idx → EReal) = shapeCast S1x64 (m ((c : Thread nD τ).loc main_arg21)) shapeCasts_S64_S1x64 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w20 (c : Dev nD) (t : Fin cfg0.N) : rowOf (iblk m c 20 t : Vec Ideal S1x64 .f32) = vecOf ((m ((c : Thread nD τ).loc main_arg21)) : S64.Idx → EReal) := by
  funext q
  show (iblk m c 20 t : Vec Ideal S1x64 .f32) (ix2 (0 : Fin 1) q) = _
  rw [Blocks.blk20 m c t, v_w20]
  exact RowBroadcast.shapeCast_b_1b_apply _ _ 0 q

/-- Window 22 stages argument 23 reshaped to one row. -/
theorem v_w22 (c : Dev nD) : (V m c main_v37 : S1x1.Idx → EReal) = shapeCast S1x1 (m ((c : Thread nD τ).loc main_arg23)) shapeCasts_S1_S1x1 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w22 (c : Dev nD) (t : Fin cfg0.N) : rowOf (iblk m c 22 t : Vec Ideal S1x1 .f32) = vecOf ((m ((c : Thread nD τ).loc main_arg23)) : S1.Idx → EReal) := by
  funext q
  show (iblk m c 22 t : Vec Ideal S1x1 .f32) (ix2 (0 : Fin 1) q) = _
  rw [Blocks.blk22 m c t, v_w22]
  exact RowBroadcast.shapeCast_b_1b_apply _ _ 0 q

/-- Window 23 stages argument 24 reshaped to one row. -/
theorem v_w23 (c : Dev nD) : (V m c main_v38 : S1x1.Idx → EReal) = shapeCast S1x1 (m ((c : Thread nD τ).loc main_arg24)) shapeCasts_S1_S1x1 := by
  dsimp only [V, V0]
  simp only [hostOps0, hostOps0_1, hostOps0_2, hostOps0_3, List.flatten_cons, List.flatten_nil, List.append_nil, List.cons_append, List.nil_append]
  after_results_simp
  rfl

/-- Its block, read as a row, is the argument read by its coordinate. -/
theorem row_w23 (c : Dev nD) (t : Fin cfg0.N) : rowOf (iblk m c 23 t : Vec Ideal S1x1 .f32) = vecOf ((m ((c : Thread nD τ).loc main_arg24)) : S1.Idx → EReal) := by
  funext q
  show (iblk m c 23 t : Vec Ideal S1x1 .f32) (ix2 (0 : Fin 1) q) = _
  rw [Blocks.blk23 m c t, v_w23]
  exact RowBroadcast.shapeCast_b_1b_apply _ _ 0 q

end Cert.KernelIdeal.Arrays

end
-- ==== Proof.OneHot.lean ====
/-
  The 0/1 matrix the kernel multiplies feature rows with.

  The program builds it from integers: the remainders of 0 … 415 by 16 (with the sign correction a floored remainder
  needs), compared for equality with the column numbers 0 … 15, the bit converted to a float.  The bits are evaluated:
  bit (j, e) is set exactly when j mod 16 = e; so the matrix entry is 1 there and 0 elsewhere.
-/
import proofs.«136922_j82471962018408_2_alg».proof.Proof.FrameKernelIdeal
import proofs.«136922_j82471962018408_2_alg».proof.Proof.Gen.ReferenceIdeal.Read
import proofs.«136922_j82471962018408_2_alg».proof.Proof.Blocks
import proofs.«136922_j82471962018408_2_alg».proof.Proof.LibBatchNorm
import proofs.«136922_j82471962018408_2_alg».proof.Proof.LibRowBroadcast
import proofs.«136922_j82471962018408_2_alg».proof.Proof.LibKeepDims
import proofs.«136922_j82471962018408_2_alg».proof.Proof.ArraysMain
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Arrays

open Cert.KernelIdeal Cert.KernelIdeal.Gen NormTower

/-- The divisor as the program computes it: 16, or 1 if 16 were 0. -/
def divisor : IVec S_ 32 :=
  select (cmpi .eq (id (constantI S_ 32 16#32)) (constantI S_ 32 0#32)) (constantI S_ 32 1#32) (id (constantI S_ 32 16#32))

/-- The truncated remainder of 0 … 415 by the divisor. -/
def rem0 : IVec S416 32 := Host.remsi (iotaInDim S416 32 0) (broadcastInDim S416 ![] bcast_S_S416 divisor)

/-- The remainder with the divisor's sign: the truncated one, moved by the divisor where it is not zero and its sign differs. -/
def remainder : IVec S416 32 :=
  select (andi (cmpi .ne (cmpi .slt rem0 (broadcastInDim S416 ![] bcast_S_S416 (constantI S_ 32 0#32)))
      (broadcastInDim S416 ![] bcast_S_S416 (cmpi .slt divisor (constantI S_ 32 0#32))))
      (cmpi .ne rem0 (broadcastInDim S416 ![] bcast_S_S416 (constantI S_ 32 0#32))))
    (addi rem0 (broadcastInDim S416 ![] bcast_S_S416 divisor)) rem0

/-- Bit (j, e): is the remainder of j the column number e? -/
def bits : IVec S416x16 1 :=
  cmpi .eq (broadcastInDim S416x16 ![0, 1] bcast_S416x1_S416x16_0_1 (broadcastInDim S416x1 ![0] bcast_S416_S416x1_0 remainder))
    (broadcastInDim S416x16 ![0, 1] bcast_S1x16_S416x16_0_1 (iotaInDim S1x16 32 1))

/-- Entry (j, e) is set exactly when j mod 16 = e: 6656 evaluations of 32-bit words. -/
theorem bits_spec : ∀ (j : Fin 416) (e : Fin 16), bits (ix2 j e) = if j.val % 16 = e.val then 1#1 else 0#1 := by
  decide +kernel

variable (m : (ℓ : Loc nD τ sig) → Buf (Elt Ideal) ℓ)

/-- The matrix of bits the program computes is `bits`. -/
theorem bits_eq (c : Dev nD) : (V m c main_call1_v4 : IVec S416x16 1) = bits := by
  dsimp only [V, V0]
  simp only [hostOps0, hostOps0_1, hostOps0_2, hostOps0_3, List.flatten_cons, List.flatten_nil, List.append_nil, List.cons_append, List.nil_append]
  after_results_simp
  rfl

/-- The 0/1 matrix's block, read at (j, e). -/
theorem onehot_at (c : Dev nD) (t : Fin cfg0.N) (j : Fin 416) (e : Fin 16) :
    ((iblk m c 2 t : Vec Ideal S416x16 .bf16) (ix2 j e) : EReal) = if j.val % 16 = e.val then (1 : EReal) else 0 := by
  rw [Blocks.blk2 m c t, onehot_eq, bits_eq]
  show (((bits (ix2 j e)).toNat : ℝ) : EReal) = _
  rw [bits_spec]
  by_cases h : j.val % 16 = e.val
  · rw [if_pos h, if_pos h]
    show (((1 : ℕ) : ℝ) : EReal) = 1
    simp
  · rw [if_neg h, if_neg h]
    show (((0 : ℕ) : ℝ) : EReal) = 0
    simp

end Cert.KernelIdeal.Arrays

end
-- ==== Proof.LibFieldSum.lean ====
/-
  The feature row of a factorisation machine and the sum over fields through a 0/1 matrix.

  A row of 26 fields of width 16 is laid flat as 416 numbers, field f's entry e at position 16·f + e; 13 further numbers
  are appended to make a row of 429.  Summing the flat row against the 416 × 16 matrix whose (j, e) entry is 1 when
  j mod 16 = e and 0 otherwise picks, for each e, the 26 entries at positions ≡ e: the sum over the fields of entry e.
  On the extended reals x · 0 = 0 and x · 1 = x for every x, so this needs no finiteness.
-/
import Mathlib
import Idealize.ShloMosaic.Lib.ValueIdx
import Idealize.ShloMosaic.Lib.Pipeline.Value

noncomputable section

namespace FieldSum

open Idealize.ShloMosaic Idealize.ShloMosaic.ValueIdx

/-- Position 16·f + e of the flat row. -/
def pos (f : Fin 26) (e : Fin 16) : Fin 416 := ⟨16 * f.val + e.val, by have := f.isLt; have := e.isLt; omega⟩

/-- Position 416 + d of the appended numbers. -/
def tailPos (d : Fin 13) : Fin 429 := ⟨416 + d.val, by have := d.isLt; omega⟩

/-- A position of the flat row read inside the longer row. -/
def headPos (j : Fin 416) : Fin 429 := ⟨j.val, by have := j.isLt; omega⟩

/-- A flat position is (field, entry). -/
def split : Fin 26 × Fin 16 ≃ Fin 416 where
  toFun p := pos p.1 p.2
  invFun j := (⟨j.val / 16, by have := j.isLt; omega⟩, ⟨j.val % 16, Nat.mod_lt _ (by decide)⟩)
  left_inv p := by
    rcases p with ⟨f, e⟩
    have hf := f.isLt
    have he := e.isLt
    refine Prod.ext (Fin.ext ?_) (Fin.ext ?_)
    · show (16 * f.val + e.val) / 16 = f.val; omega
    · show (16 * f.val + e.val) % 16 = e.val; omega
  right_inv j := by
    apply Fin.ext
    show 16 * (j.val / 16) + j.val % 16 = j.val
    omega

/-- Summing a flat row against the column e of the 0/1 matrix is summing entry e over the fields. -/
theorem onehot_sum (X : Fin 416 → EReal) (M : Fin 416 → EReal) (e : Fin 16)
    (hM : ∀ j : Fin 416, M j = if j.val % 16 = e.val then 1 else 0) :
    ∑ j : Fin 416, X j * M j = ∑ f : Fin 26, X (pos f e) := by
  rw [← Equiv.sum_comp split, Fintype.sum_prod_type]
  refine Finset.sum_congr rfl fun f _ => ?_
  show ∑ e' : Fin 16, X (pos f e') * M (pos f e') = X (pos f e)
  have hf := f.isLt
  rw [Finset.sum_eq_single e]
  · rw [hM, if_pos (by show (16 * f.val + e.val) % 16 = e.val; have := e.isLt; omega), mul_one]
  · intro e' _ hne
    rw [hM, if_neg, mul_zero]
    intro h
    apply hne
    apply Fin.ext
    have h' : (16 * f.val + e'.val) % 16 = e.val := h
    have := e'.isLt
    omega
  · intro h
    exact absurd (Finset.mem_univ e) h

/-- Two arrays joined along the lanes, [B, 416] then [B, 13], read in the first part. -/
theorem joined_head {B : Nat} (x₁ : (⟨2, ![B, 416]⟩ : Shape).Idx → EReal) (x₂ : (⟨2, ![B, 13]⟩ : Shape).Idx → EReal)
    (h : Shape.Concatenates [(⟨2, ![B, 416]⟩ : Shape), ⟨2, ![B, 13]⟩] ⟨2, ![B, 429]⟩ 1) (b : Fin B) (j : Fin 416) :
    concatenate ⟨2, ![B, 429]⟩ 1 [⟨⟨2, ![B, 416]⟩, x₁⟩, ⟨⟨2, ![B, 13]⟩, x₂⟩] h (ix2 b (headPos j)) = x₁ (ix2 b j) :=
  concatenate_pair_apply_left 1 x₁ x₂ h (ix2 b (headPos j)) rfl (ix2 b j) (fun a => match a with
    | ⟨0, _⟩ => rfl
    | ⟨1, _⟩ => rfl)

/-- … and in the second part. -/
theorem joined_tail {B : Nat} (x₁ : (⟨2, ![B, 416]⟩ : Shape).Idx → EReal) (x₂ : (⟨2, ![B, 13]⟩ : Shape).Idx → EReal)
    (h : Shape.Concatenates [(⟨2, ![B, 416]⟩ : Shape), ⟨2, ![B, 13]⟩] ⟨2, ![B, 429]⟩ 1) (b : Fin B) (d : Fin 13) :
    concatenate ⟨2, ![B, 429]⟩ 1 [⟨⟨2, ![B, 416]⟩, x₁⟩, ⟨⟨2, ![B, 13]⟩, x₂⟩] h (ix2 b (tailPos d)) = x₂ (ix2 b d) :=
  concatenate_pair_apply_right 1 x₁ x₂ h (ix2 b (tailPos d)) rfl rfl (ix2 b d) (fun a ha => match a with
    | ⟨0, _⟩ => rfl
    | ⟨1, _⟩ => absurd rfl ha) (by show d.val + 416 = 416 + d.val; omega)

/-- A [B, 26, 16] array flattened to [B, 416], read at position 16·f + e of row b. -/
theorem flat_apply {B : Nat} (E : (⟨3, ![B, 26, 16]⟩ : Shape).Idx → EReal)
    (h : (⟨3, ![B, 26, 16]⟩ : Shape).ShapeCasts ⟨2, ![B, 416]⟩) (b : Fin B) (f : Fin 26) (e : Fin 16) :
    shapeCast ⟨2, ![B, 416]⟩ E h (ix2 b (pos f e)) = E (ix3 b f e) :=
  shapeCast_apply E h _ _ (by
    rw [Shape.rowMajor_val_three, Shape.rowMajor_val_two]
    show (b.val * 26 + f.val) * 16 + e.val = b.val * 416 + (16 * f.val + e.val)
    ring)

end FieldSum

end
-- ==== Proof.KernelRow.lean ====
/-
  The kernel body's result, one row of a block at a time.

  The body stores one [2048, 1] block: for row r of the block, the global bias, plus the lane sum of the linear terms,
  plus the dense features' product with their weight column and its bias, plus one half of the lane sum of
  (x·M)² − (x²)·M over the 16 columns of the 0/1 matrix M, plus the tower — three dense layers with normalisations and
  rectifiers between them — applied to the block's feature rows.  Each of the five is read here off the body's
  arithmetic; the tower as a whole-array function, the others at the row.
-/
import proofs.«136922_j82471962018408_2_alg».proof.Proof.Gen.KernelIdeal.Skeleton
import proofs.«136922_j82471962018408_2_alg».proof.Proof.LibBatchNorm
import proofs.«136922_j82471962018408_2_alg».proof.Proof.LibKeepDims
import proofs.«136922_j82471962018408_2_alg».proof.Proof.LibFieldSum
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx
open NormTower DenseLayer FieldSum

/-- The normalisations' offset: the float word of 1e-5. -/
abbrev ε : EReal := Ideal.ofBits .f32 0x3727C5AC#32

/-- One half. -/
abbrev half : EReal := Ideal.ofBits .f32 0x3F000000#32

theorem plain_d : PlainDot.IsPlain dot_S2048x13_S13x1_S2048x1_1_0_0_1_n_n := ⟨rfl, rfl, rfl, rfl, rfl, rfl⟩
theorem plain_m : PlainDot.IsPlain dot_S2048x416_S416x16_S2048x16_1_0_0_1_n_n := ⟨rfl, rfl, rfl, rfl, rfl, rfl⟩
theorem plain1 : PlainDot.IsPlain dot_S2048x429_S429x128_S2048x128_1_0_0_1_n_n := ⟨rfl, rfl, rfl, rfl, rfl, rfl⟩
theorem plain2 : PlainDot.IsPlain dot_S2048x128_S128x64_S2048x64_1_0_0_1_n_n := ⟨rfl, rfl, rfl, rfl, rfl, rfl⟩
theorem plain3 : PlainDot.IsPlain dot_S2048x64_S64x1_S2048x1_1_0_0_1_n_n := ⟨rfl, rfl, rfl, rfl, rfl, rfl⟩

/-- The first 416 lanes of a feature row. -/
theorem head_slice (x0 : Vec Ideal S2048x429 .bf16) (r : Fin 2048) (j : Fin 416) :
    extractStridedSlice S2048x416 ![0, 0] x0 slices_S2048x429_o0_0_S2048x416 (ix2 r j) = x0 (ix2 r (headPos j)) :=
  extractStridedSlice_apply _ x0 _ (ix2 r j) (ix2 r (headPos j)) (fun a => match a with
    | ⟨0, _⟩ => by show r.val = 0 + r.val; omega
    | ⟨1, _⟩ => by show j.val = 0 + j.val; omega)

/-- The last 13 lanes of a feature row. -/
theorem tail_slice (x0 : Vec Ideal S2048x429 .bf16) (r : Fin 2048) (d : Fin 13) :
    extractStridedSlice S2048x13 ![0, 416] x0 slices_S2048x429_o0_416_S2048x13 (ix2 r d) = x0 (ix2 r (tailPos d)) :=
  extractStridedSlice_apply _ x0 _ (ix2 r d) (ix2 r (tailPos d)) (fun a => match a with
    | ⟨0, _⟩ => by show r.val = 0 + r.val; omega
    | ⟨1, _⟩ => by show 416 + d.val = 416 + d.val; rfl)

/-- The sum of the 26 linear terms of row r. -/
theorem sparse_at (x1 : Vec Ideal S2048x26 .bf16) (r : Fin 2048) :
    k0_pay3 (F := Ideal) x1 (ix2 r (0 : Fin 1)) = ∑ f : Fin 26, x1 (ix2 r f) := by
  unfold k0_pay3
  try dsimp only
  rw [shapeCast_self]
  refine (KeepDims.shapeCast_a_a1_apply _ _ r 0).trans ?_
  exact KeepDims.laneSum_apply _ _ _ _ r

/-- The dense features' linear term of row r. -/
theorem dense_at (x0 : Vec Ideal S2048x429 .bf16) (x3 : Vec Ideal S13x1 .bf16) (x4 : Vec Ideal S1x1 .f32) (r : Fin 2048) :
    k0_pay4 (F := Ideal) x0 x3 x4 (ix2 r (0 : Fin 1))
      = (∑ d : Fin 13, x0 (ix2 r (tailPos d)) * x3 (ix2 d (0 : Fin 1))) + x4 (ix2 (0 : Fin 1) (0 : Fin 1)) := by
  unfold k0_pay4 k0_pay2
  try dsimp only
  simp only [shapeCast_self]
  refine (addf_apply _ _ _).trans ?_
  rw [rows_apply]
  refine congrArg (· + _) ?_
  refine (PlainDot.matmul_zero_apply (φ₁ := .bf16) (φ₂ := .bf16) plain_d _ _ r 0).trans ?_
  exact Finset.sum_congr rfl fun d _ => congrArg (· * _) (tail_slice x0 r d)

/-- The second-order interaction term of row r, through the 0/1 matrix. -/
theorem fm_at (x0 : Vec Ideal S2048x429 .bf16) (x2 : Vec Ideal S416x16 .bf16) (r : Fin 2048) :
    k0_pay5 (F := Ideal) x0 x2 x2 (ix2 r (0 : Fin 1))
      = half * ∑ e : Fin 16,
          ((∑ j : Fin 416, x0 (ix2 r (headPos j)) * x2 (ix2 j e)) * (∑ j : Fin 416, x0 (ix2 r (headPos j)) * x2 (ix2 j e))
            - ∑ j : Fin 416, (x0 (ix2 r (headPos j)) * x0 (ix2 r (headPos j))) * x2 (ix2 j e)) := by
  unfold k0_pay5 k0_pay2
  try dsimp only
  simp only [shapeCast_self]
  refine (mulf_apply _ _ _).trans ?_
  refine congrArg₂ (· * ·) rfl ?_
  refine (KeepDims.shapeCast_a_a1_apply _ _ r 0).trans ?_
  refine (KeepDims.laneSum_apply _ _ _ _ r).trans ?_
  refine Finset.sum_congr rfl fun e _ => ?_
  refine (subf_apply _ _ _).trans ?_
  refine congrArg₂ (· - ·) ?_ ?_
  · refine (mulf_apply _ _ _).trans ?_
    have h1 := (PlainDot.matmul_zero_apply (φ₁ := .bf16) (φ₂ := .bf16) plain_m (extractStridedSlice S2048x416 ![0, 0] x0 slices_S2048x429_o0_0_S2048x416) x2 r e).trans
      (Finset.sum_congr rfl fun j _ => congrArg (· * x2 (ix2 j e)) (head_slice x0 r j))
    exact congrArg₂ (· * ·) h1 h1
  · refine (PlainDot.matmul_zero_apply (φ₁ := .bf16) (φ₂ := .bf16) plain_m _ _ r e).trans ?_
    refine Finset.sum_congr rfl fun j _ => congrArg (· * x2 (ix2 j e)) ?_
    show extractStridedSlice S2048x416 ![0, 0] x0 slices_S2048x429_o0_0_S2048x416 (ix2 r j)
        * extractStridedSlice S2048x416 ![0, 0] x0 slices_S2048x429_o0_0_S2048x416 (ix2 r j) = _
    rw [head_slice]

/-- The tower, as a whole-array function of the block's feature rows. -/
theorem tower_eq (x0 : Vec Ideal S2048x429 .bf16) (x1 : Vec Ideal S2048x26 .bf16) (x2 : Vec Ideal S416x16 .bf16) (x3 : Vec Ideal S13x1 .bf16) (x4 : Vec Ideal S1x1 .f32) (x5 : Vec Ideal S1x429 .f32) (x6 : Vec Ideal S1x429 .f32) (x7 : Vec Ideal S1x429 .f32) (x8 : Vec Ideal S1x429 .f32) (x9 : Vec Ideal S429x128 .bf16) (x10 : Vec Ideal S1x128 .f32) (x11 : Vec Ideal S1x128 .f32) (x12 : Vec Ideal S1x128 .f32) (x13 : Vec Ideal S1x128 .f32) (x14 : Vec Ideal S1x128 .f32) (x15 : Vec Ideal S128x64 .bf16) (x16 : Vec Ideal S1x64 .f32) (x17 : Vec Ideal S1x64 .f32) (x18 : Vec Ideal S1x64 .f32) (x19 : Vec Ideal S1x64 .f32) (x20 : Vec Ideal S1x64 .f32) (x21 : Vec Ideal S64x1 .bf16) (x22 : Vec Ideal S1x1 .f32) (x23 : Vec Ideal S1x1 .f32) :
    k0_pay10 (F := Ideal) (k0_pay9 (k0_pay6 x0) (k0_pay7 x5) (k0_pay8 x6) x7 x8 x9 x10 x11 x12 x13 x14) x15 x16 x17 x18 x19 x20 x21 x22
      = dense (relu (bn ε (dense (relu (bn ε (dense (bn ε x0 (rowOf x5) (rowOf x6) (rowOf x7) (rowOf x8)) x9 (rowOf x10)) (rowOf x11) (rowOf x12) (rowOf x13) (rowOf x14))) x15 (rowOf x16)) (rowOf x17) (rowOf x18) (rowOf x19) (rowOf x20))) x21 (rowOf x22) := by
  unfold k0_pay10 k0_pay9 k0_pay6 k0_pay7 k0_pay8 k0_pay2
  try dsimp only
  simp only [shapeCast_self]
  rw [kernel_bn, kernel_dense_w plain1, kernel_bn, kernel_relu, kernel_dense_w plain2, kernel_bn, kernel_relu, kernel_dense_w plain3]
  rfl

/-- Row r of the stored block: the five numbers added in the body's order. -/
theorem row_eq (v6 v15 v30 v116 : FVec Ideal S2048x1 .f32) (x23 : Vec Ideal S1x1 .f32) (r : Fin 2048) :
    k0_pay1 (F := Ideal) v6 v15 v30 v116 x23 (ix2 r (0 : Fin 1))
      = x23 (ix2 (0 : Fin 1) (0 : Fin 1)) + v6 (ix2 r (0 : Fin 1)) + v15 (ix2 r (0 : Fin 1)) + v30 (ix2 r (0 : Fin 1)) + v116 (ix2 r (0 : Fin 1)) := by
  unfold k0_pay1
  try dsimp only
  simp only [shapeCast_self]
  show broadcastTo S2048x1 x23 broadcasts_S1x1_S2048x1 (ix2 r (0 : Fin 1)) + _ + _ + _ + _ = _
  rw [rows_apply]

end Cert.KernelIdeal.Row

end
-- ==== Proof.RefRow.lean ====
/-
  The reference's result, one batch row at a time.

  Row b of the reference's [16384, 1] result is the sum of five numbers: the global bias; the sum over the 26 fields of
  the gathered linear terms; the dense features' dot product with their weights, plus its bias; one half of the sum
  over the 16 embedding entries of (Σ_f e)² − Σ_f e²; and the three-layer tower applied to the joined feature row.
  The tower is read as a whole-array function (dense layers, normalisations, rectifiers); the four others at the row.
-/
import proofs.«136922_j82471962018408_2_alg».proof.Proof.Gen.ReferenceIdeal.Read
import proofs.«136922_j82471962018408_2_alg».proof.Proof.LibBatchNorm
import proofs.«136922_j82471962018408_2_alg».proof.Proof.LibBroadcastReads
import Idealize.ShloMosaic.Lib.Pipeline.Value
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx
open NormTower DenseLayer

/-- An index of rank 2 with known coordinates. -/
theorem ix2_of {n0 n1 : Nat} (j : (⟨2, ![n0, n1]⟩ : Shape).Idx) (a : Fin n0) (b : Fin n1) (h0 : (j 0).val = a.val) (h1 : (j 1).val = b.val) :
    j = ix2 a b := funext fun d => match d with
  | ⟨0, _⟩ => Fin.ext h0
  | ⟨1, _⟩ => Fin.ext h1

/-- An index of rank 3 with known coordinates. -/
theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := funext fun d => match d with
  | ⟨0, _⟩ => Fin.ext h0
  | ⟨1, _⟩ => Fin.ext h1
  | ⟨2, _⟩ => Fin.ext h2

/-- The normalisations' offset: the float word of 1e-5. -/
abbrev ε : EReal := Ideal.ofBits .f32 0x3727C5AC#32

/-- One half. -/
abbrev half : EReal := Ideal.ofBits .f32 0x3F000000#32

theorem plain1 : PlainDot.IsPlain dot_S16384x429_S429x128_S16384x128_1_0_0_1_n_n := ⟨rfl, rfl, rfl, rfl, rfl, rfl⟩
theorem plain2 : PlainDot.IsPlain dot_S16384x128_S128x64_S16384x64_1_0_0_1_n_n := ⟨rfl, rfl, rfl, rfl, rfl, rfl⟩
theorem plain3 : PlainDot.IsPlain dot_S16384x64_S64x1_S16384x1_1_0_0_1_n_n := ⟨rfl, rfl, rfl, rfl, rfl, rfl⟩

/-- The zero a host sum starts from. -/
theorem zero_word : constant (F := Ideal) S_ .f32 0x00000000#32 (Shape.Idx.first h_S_) = 0 := Ideal.ofBits_zero_f32

/-- The global bias, broadcast down the batch. -/
theorem gbias_at (x24 : (⟨S1, .f32⟩ : BufTy).Contents (Elt Ideal)) (b : Fin 16384) :
    val_main_v99 (F := Ideal) x24 (ix2 b (0 : Fin 1)) = x24 (ix1 (0 : Fin 1)) := by
  unfold val_main_v99 val_main_v98
  exact vec_rows_apply x24 _ _ b 0

/-- The sum of the gathered linear terms of row b. -/
theorem sparse_at (x0 : (⟨S16384x26, .i32⟩ : BufTy).Contents (Elt Ideal)) (x3 : (⟨S26x100001, .f32⟩ : BufTy).Contents (Elt Ideal)) (b : Fin 16384) :
    val_main_v19 (F := Ideal) x0 x3 (ix2 b (0 : Fin 1)) = ∑ f : Fin 26, val_main_v17 (F := Ideal) x0 x3 (ix2 b f) := by
  unfold val_main_v19
  rw [BroadcastReads.vec_to_col _ _ b 0, val_main_v18_apply]
  unfold val_main_cst
  rw [zero_word, zero_add]
  exact Finset.sum_congr rfl fun f _ => congrArg _ (ix2_of _ b f rfl rfl)

/-- The dense features' linear term of row b. -/
theorem dense_at (x1 : (⟨S16384x13, .f32⟩ : BufTy).Contents (Elt Ideal)) (x4 : (⟨S13, .f32⟩ : BufTy).Contents (Elt Ideal))
    (x5 : (⟨S1, .f32⟩ : BufTy).Contents (Elt Ideal)) (b : Fin 16384) :
    val_main_v24 (F := Ideal) x1 x4 x5 (ix2 b (0 : Fin 1)) = (∑ d : Fin 13, x1 (ix2 b d) * x4 (ix1 d)) + x5 (ix1 (0 : Fin 1)) := by
  show val_main_v21 (F := Ideal) x1 x4 (ix2 b (0 : Fin 1)) + val_main_v23 (F := Ideal) x5 (ix2 b (0 : Fin 1)) = _
  rw [val_main_v21_apply]
  unfold val_main_v23 val_main_v22 val_main_v20
  rw [vec_rows_apply]
  refine congrArg (· + _) (Finset.sum_congr rfl fun d _ => ?_)
  refine congrArg₂ (· * ·) (congrArg x1 (ix2_of _ b d rfl rfl)) ?_
  exact (congrArg _ (ix2_of _ d (0 : Fin 1) rfl rfl)).trans (BroadcastReads.vec_to_col x4 _ d 0)

/-- The second-order interaction term of row b. -/
theorem fm_at (x0 : (⟨S16384x26, .i32⟩ : BufTy).Contents (Elt Ideal)) (x2 : (⟨S26x100001x16, .f32⟩ : BufTy).Contents (Elt Ideal)) (b : Fin 16384) :
    val_main_v33 (F := Ideal) x0 x2 (ix2 b (0 : Fin 1))
      = half * ∑ e : Fin 16, ((∑ f : Fin 26, val_main_v8 (F := Ideal) x0 x2 (ix3 b f e)) * (∑ f : Fin 26, val_main_v8 (F := Ideal) x0 x2 (ix3 b f e))
          - ∑ f : Fin 26, val_main_v8 (F := Ideal) x0 x2 (ix3 b f e) * val_main_v8 (F := Ideal) x0 x2 (ix3 b f e)) := by
  show val_main_v32 (F := Ideal) (ix2 b (0 : Fin 1)) * val_main_v31 (F := Ideal) x0 x2 (ix2 b (0 : Fin 1)) = _
  refine congrArg₂ (· * ·) ?_ ?_
  · unfold val_main_v32 val_main_cst_6
    exact BroadcastReads.scalar_to _ _ _ _
  · unfold val_main_v31
    rw [BroadcastReads.vec_to_col _ _ b 0, val_main_v30_apply]
    unfold val_main_cst_5
    rw [zero_word, zero_add]
    refine Finset.sum_congr rfl fun e _ => ?_
    have hi : idx_main_v30 (ix1 b) e = ix2 b e := ix2_of _ b e rfl rfl
    rw [hi]
    show val_main_v25 (F := Ideal) x0 x2 (ix2 b e) * val_main_v25 (F := Ideal) x0 x2 (ix2 b e) - val_main_v28 (F := Ideal) x0 x2 (ix2 b e) = _
    rw [val_main_v25_apply, val_main_v28_apply]
    unfold val_main_cst_3 val_main_cst_4
    rw [zero_word, zero_add, zero_add]
    have hk : ∀ f : Fin 26, idx_main_v25 (ix2 b e) f = ix3 b f e := fun f => ix3_of _ b f e rfl rfl rfl
    have hk' : ∀ f : Fin 26, idx_main_v28 (ix2 b e) f = ix3 b f e := fun f => ix3_of _ b f e rfl rfl rfl
    simp only [hk, hk']
    rfl

/-- The tower, as a whole-array function of the joined feature rows. -/
theorem tower_eq (x0 : (⟨S16384x26, .i32⟩ : BufTy).Contents (Elt Ideal)) (x1 : (⟨S16384x13, .f32⟩ : BufTy).Contents (Elt Ideal)) (x2 : (⟨S26x100001x16, .f32⟩ : BufTy).Contents (Elt Ideal)) (x3 : (⟨S26x100001, .f32⟩ : BufTy).Contents (Elt Ideal)) (x4 : (⟨S13, .f32⟩ : BufTy).Contents (Elt Ideal)) (x5 : (⟨S1, .f32⟩ : BufTy).Contents (Elt Ideal)) (x6 x7 x8 x9 : (⟨S429, .f32⟩ : BufTy).Contents (Elt Ideal)) (x10 : (⟨S128x429, .f32⟩ : BufTy).Contents (Elt Ideal)) (x11 x12 x13 x14 x15 : (⟨S128, .f32⟩ : BufTy).Contents (Elt Ideal)) (x16 : (⟨S64x128, .f32⟩ : BufTy).Contents (Elt Ideal)) (x17 x18 x19 x20 x21 : (⟨S64, .f32⟩ : BufTy).Contents (Elt Ideal)) (x22 : (⟨S1x64, .f32⟩ : BufTy).Contents (Elt Ideal)) (x23 x24 : (⟨S1, .f32⟩ : BufTy).Contents (Elt Ideal)) :
    val_main_v97 (F := Ideal) x0 x1 x2 x6 x7 x8 x9 x10 x11 x12 x13 x14 x15 x16 x17 x18 x19 x20 x21 x22 x23
      = dense (relu (bn ε (dense (relu (bn ε (dense (bn ε (val_main_v35 (F := Ideal) x0 x1 x2) (vecOf x6) (vecOf x7) (vecOf x8) (vecOf x9)) (val_main_v51 (F := Ideal) x10) (vecOf x11)) (vecOf x12) (vecOf x13) (vecOf x14) (vecOf x15))) (val_main_v72 (F := Ideal) x16) (vecOf x17)) (vecOf x18) (vecOf x19) (vecOf x20) (vecOf x21))) (val_main_v93 (F := Ideal) x22) (vecOf x23) := by
  unfold val_main_v97 val_main_v96 val_main_v95 val_main_v94 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v50 val_main_v49 val_main_v48 val_main_v47 val_main_v46 val_main_v45 val_main_v44 val_main_v43 val_main_v42 val_main_v41 val_main_v40 val_main_v39 val_main_v38 val_main_v37 val_main_v36 val_main_call0_v0 val_main_call0_cst val_main_call1_v0 val_main_call1_cst val_main_cst_7 val_main_cst_8 val_main_cst_9
  rw [host_bn, host_dense_v plain1, host_bn, host_relu, host_dense_v plain2, host_bn, host_relu, host_dense_v plain3]

/-- Row b of the reference's result before its final reshape: the five numbers added in the program's order. -/
theorem row_eq (x0 : (⟨S16384x26, .i32⟩ : BufTy).Contents (Elt Ideal)) (x1 : (⟨S16384x13, .f32⟩ : BufTy).Contents (Elt Ideal)) (x2 : (⟨S26x100001x16, .f32⟩ : BufTy).Contents (Elt Ideal)) (x3 : (⟨S26x100001, .f32⟩ : BufTy).Contents (Elt Ideal)) (x4 : (⟨S13, .f32⟩ : BufTy).Contents (Elt Ideal)) (x5 : (⟨S1, .f32⟩ : BufTy).Contents (Elt Ideal)) (x6 x7 x8 x9 : (⟨S429, .f32⟩ : BufTy).Contents (Elt Ideal)) (x10 : (⟨S128x429, .f32⟩ : BufTy).Contents (Elt Ideal)) (x11 x12 x13 x14 x15 : (⟨S128, .f32⟩ : BufTy).Contents (Elt Ideal)) (x16 : (⟨S64x128, .f32⟩ : BufTy).Contents (Elt Ideal)) (x17 x18 x19 x20 x21 : (⟨S64, .f32⟩ : BufTy).Contents (Elt Ideal)) (x22 : (⟨S1x64, .f32⟩ : BufTy).Contents (Elt Ideal)) (x23 x24 : (⟨S1, .f32⟩ : BufTy).Contents (Elt Ideal)) (b : Fin 16384) :
    val_main_v103 (F := Ideal) x0 x1 x2 x3 x4 x5 x6 x7 x8 x9 x10 x11 x12 x13 x14 x15 x16 x17 x18 x19 x20 x21 x22 x23 x24 (ix2 b (0 : Fin 1))
      = x24 (ix1 (0 : Fin 1)) + val_main_v19 (F := Ideal) x0 x3 (ix2 b (0 : Fin 1)) + val_main_v24 (F := Ideal) x1 x4 x5 (ix2 b (0 : Fin 1))
          + val_main_v33 (F := Ideal) x0 x2 (ix2 b (0 : Fin 1))
          + val_main_v97 (F := Ideal) x0 x1 x2 x6 x7 x8 x9 x10 x11 x12 x13 x14 x15 x16 x17 x18 x19 x20 x21 x22 x23 (ix2 b (0 : Fin 1)) := by
  show val_main_v99 (F := Ideal) x24 (ix2 b (0 : Fin 1)) + _ + _ + _ + _ = _
  rw [gbias_at]

end Cert.ReferenceIdeal.Row

end
-- ==== Proof.LibNormTower.lean ====
/-
  The three-layer tower — normalise, then twice (dense, normalise, rectify), then a last dense layer — as one whole-array
  function, and its row-locality: row p of the result reads row p of the input and nothing else of it.
-/
import proofs.«136922_j82471962018408_2_alg».proof.Proof.LibBatchNorm

noncomputable section

namespace NormTower

open Idealize.ShloMosaic Idealize.ShloMosaic.ValueIdx DenseLayer

variable {P P' K0 K1 K2 K3 : Nat}

/-- bn → dense → bn → relu → dense → bn → relu → dense. -/
def tower (ε : EReal) (x : (⟨2, ![P, K0]⟩ : Shape).Idx → EReal) (g0 b0 m0 v0 : Fin K0 → EReal)
    (W1 : (⟨2, ![K0, K1]⟩ : Shape).Idx → EReal) (c1 g1 b1 m1 v1 : Fin K1 → EReal)
    (W2 : (⟨2, ![K1, K2]⟩ : Shape).Idx → EReal) (c2 g2 b2 m2 v2 : Fin K2 → EReal)
    (W3 : (⟨2, ![K2, K3]⟩ : Shape).Idx → EReal) (c3 : Fin K3 → EReal) : (⟨2, ![P, K3]⟩ : Shape).Idx → EReal :=
  dense (relu (bn ε (dense (relu (bn ε (dense (bn ε x g0 b0 m0 v0) W1 c1) g1 b1 m1 v1)) W2 c2) g2 b2 m2 v2)) W3 c3

/-- Entry (p, q) of the tower reads row p of its input. -/
theorem tower_congr {ε : EReal} {x : (⟨2, ![P, K0]⟩ : Shape).Idx → EReal} {x' : (⟨2, ![P', K0]⟩ : Shape).Idx → EReal}
    {g0 b0 m0 v0 : Fin K0 → EReal} {W1 : (⟨2, ![K0, K1]⟩ : Shape).Idx → EReal} {c1 g1 b1 m1 v1 : Fin K1 → EReal}
    {W2 : (⟨2, ![K1, K2]⟩ : Shape).Idx → EReal} {c2 g2 b2 m2 v2 : Fin K2 → EReal}
    {W3 : (⟨2, ![K2, K3]⟩ : Shape).Idx → EReal} {c3 : Fin K3 → EReal} {p : Fin P} {p' : Fin P'} {q : Fin K3}
    (hx : ∀ k, x (ix2 p k) = x' (ix2 p' k)) :
    tower ε x g0 b0 m0 v0 W1 c1 g1 b1 m1 v1 W2 c2 g2 b2 m2 v2 W3 c3 (ix2 p q)
      = tower ε x' g0 b0 m0 v0 W1 c1 g1 b1 m1 v1 W2 c2 g2 b2 m2 v2 W3 c3 (ix2 p' q) :=
  dense_congr (fun k2 => relu_congr (bn_congr (dense_congr (fun k1 => relu_congr (bn_congr (dense_congr
    (fun k0 => bn_congr (hx k0) rfl rfl rfl rfl) (fun _ => rfl) rfl) rfl rfl rfl rfl)) (fun _ => rfl) rfl) rfl rfl rfl rfl))
    (fun _ => rfl) rfl

end NormTower

end
-- ==== Proof.Bridge.lean ====
/-
  The kernel's result array is the reference's.

  Grid point t stores rows 2048·t … 2048·t + 2047 of the [16384, 1] result.  Row r of that block is, term by term, row
  2048·t + r of the reference's result before its last reshape: the bias and the two linear terms because the blocks
  are rows of the same arrays; the interaction term because summing a feature row against the 0/1 matrix is summing over
  the 26 fields (x · 0 = 0 and x · 1 = x on the extended reals, no finiteness needed); the tower because a row of it
  reads only that row of the features.  The eight blocks cover the array, and the program's last reshape is the
  reference's.
-/
import proofs.«136922_j82471962018408_2_alg».proof.Proof.FrameKernelIdeal
import proofs.«136922_j82471962018408_2_alg».proof.Proof.Gen.ReferenceIdeal.Read
import proofs.«136922_j82471962018408_2_alg».proof.Proof.Blocks
import proofs.«136922_j82471962018408_2_alg».proof.Proof.ArraysMain
import proofs.«136922_j82471962018408_2_alg».proof.Proof.ArraysRowsA
import proofs.«136922_j82471962018408_2_alg».proof.Proof.ArraysRowsB
import proofs.«136922_j82471962018408_2_alg».proof.Proof.OneHot
import proofs.«136922_j82471962018408_2_alg».proof.Proof.KernelRow
import proofs.«136922_j82471962018408_2_alg».proof.Proof.RefRow
import proofs.«136922_j82471962018408_2_alg».proof.Proof.LibNormTower
import proofs.«136922_j82471962018408_2_alg».proof.Proof.LibFieldSum
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Bridge

open Cert.KernelIdeal Cert.KernelIdeal.Gen NormTower DenseLayer FieldSum

variable (m : (ℓ : Loc nD τ sig) → Buf (Elt Ideal) ℓ) (ρ : Dev nD → PrngReg)

/-- The reference's [16384, 1] result before its last reshape, of the kernel's arguments. -/
def G (c : Dev nD) : S16384x1.Idx → EReal :=
  Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

theorem hz : (![0, 0] : Fin 2 → Nat) = fun _ => 0 := funext fun a => by fin_cases a <;> rfl

theorem hN : cfg0.N = 8 := N_0

/-- Row r of block t is row 2048·t + r of the batch. -/
def bRow (t : Fin cfg0.N) (r : Fin 2048) : Fin 16384 :=
  ⟨2048 * t.val + r.val, by have ht : t.val < 8 := lt_of_lt_of_eq t.isLt hN; have := r.isLt; omega⟩

/-- The block's feature row r is the batch's feature row 2048·t + r. -/
theorem deep_at (c : Dev nD) (t : Fin cfg0.N) (r : Fin 2048) (k : Fin 429) :
    (iblk m c 0 t : Vec Ideal S2048x429 .bf16) (ix2 r k)
      = Cert.ReferenceIdeal.Read.val_main_v35 (F := Ideal) (m ((c : Thread nD τ).loc main_arg0)) (m ((c : Thread nD τ).loc main_arg1)) (m ((c : Thread nD τ).loc main_arg2)) (ix2 (bRow t r) k) :=
  (Blocks.blk0_apply m c t (ix2 r k) (ix2 (bRow t r) k) rfl rfl).trans (congrFun (Arrays.deep_eq m c) _)

/-- The block's linear-term row r is the batch's row 2048·t + r. -/
theorem lin_at (c : Dev nD) (t : Fin cfg0.N) (r : Fin 2048) (f : Fin 26) :
    (iblk m c 1 t : Vec Ideal S2048x26 .bf16) (ix2 r f)
      = Cert.ReferenceIdeal.Read.val_main_v17 (F := Ideal) (m ((c : Thread nD τ).loc main_arg0)) (m ((c : Thread nD τ).loc main_arg3)) (ix2 (bRow t r) f) :=
  (Blocks.blk1_apply m c t (ix2 r f) (ix2 (bRow t r) f) rfl rfl).trans (congrFun (Arrays.lin_eq m c) _)

/-- Position 16·f + e of a feature row is entry e of field f's gathered embedding row. -/
theorem deep_emb (c : Dev nD) (b : Fin 16384) (f : Fin 26) (e : Fin 16) :
    Cert.ReferenceIdeal.Read.val_main_v35 (F := Ideal) (m ((c : Thread nD τ).loc main_arg0)) (m ((c : Thread nD τ).loc main_arg1)) (m ((c : Thread nD τ).loc main_arg2)) (ix2 b (headPos (pos f e)))
      = Cert.ReferenceIdeal.Read.val_main_v8 (F := Ideal) (m ((c : Thread nD τ).loc main_arg0)) (m ((c : Thread nD τ).loc main_arg2)) (ix3 b f e) := by
  unfold Cert.ReferenceIdeal.Read.val_main_v35 Cert.ReferenceIdeal.Read.val_main_v34
  exact (FieldSum.joined_head _ _ _ b (pos f e)).trans (FieldSum.flat_apply _ _ b f e)

/-- Position 416 + d of a feature row is dense feature d. -/
theorem deep_dense (c : Dev nD) (b : Fin 16384) (d : Fin 13) :
    Cert.ReferenceIdeal.Read.val_main_v35 (F := Ideal) (m ((c : Thread nD τ).loc main_arg0)) (m ((c : Thread nD τ).loc main_arg1)) (m ((c : Thread nD τ).loc main_arg2)) (ix2 b (tailPos d))
      = ((m ((c : Thread nD τ).loc main_arg1)) : S16384x13.Idx → EReal) (ix2 b d) := by
  unfold Cert.ReferenceIdeal.Read.val_main_v35
  exact FieldSum.joined_tail _ _ _ b d

/-- Point t's block of the deep features, as an array of extended reals. -/
abbrev X0 (c : Dev nD) (t : Fin cfg0.N) : S2048x429.Idx → EReal := iblk m c 0 t

/-- Point t's block of the 0/1 matrix, as an array of extended reals. -/
abbrev X2 (c : Dev nD) (t : Fin cfg0.N) : S416x16.Idx → EReal := iblk m c 2 t

/-- A feature row summed against column e of the 0/1 matrix: the sum over the fields of entry e. -/
theorem fm_sum (c : Dev nD) (t : Fin cfg0.N) (r : Fin 2048) (e : Fin 16) :
    ∑ j : Fin 416, X0 m c t (ix2 r (headPos j)) * X2 m c t (ix2 j e)
      = ∑ f : Fin 26, Cert.ReferenceIdeal.Read.val_main_v8 (F := Ideal) (m ((c : Thread nD τ).loc main_arg0)) (m ((c : Thread nD τ).loc main_arg2)) (ix3 (bRow t r) f e) := by
  refine (FieldSum.onehot_sum (fun j => X0 m c t (ix2 r (headPos j))) (fun j => X2 m c t (ix2 j e)) e
    (fun j => Arrays.onehot_at m c t j e)).trans ?_
  exact Finset.sum_congr rfl fun f _ => (deep_at m c t r _).trans (deep_emb m c _ f e)

/-- The same for the squares. -/
theorem fm_sq (c : Dev nD) (t : Fin cfg0.N) (r : Fin 2048) (e : Fin 16) :
    ∑ j : Fin 416, (X0 m c t (ix2 r (headPos j)) * X0 m c t (ix2 r (headPos j))) * X2 m c t (ix2 j e)
      = ∑ f : Fin 26, Cert.ReferenceIdeal.Read.val_main_v8 (F := Ideal) (m ((c : Thread nD τ).loc main_arg0)) (m ((c : Thread nD τ).loc main_arg2)) (ix3 (bRow t r) f e)
          * Cert.ReferenceIdeal.Read.val_main_v8 (F := Ideal) (m ((c : Thread nD τ).loc main_arg0)) (m ((c : Thread nD τ).loc main_arg2)) (ix3 (bRow t r) f e) := by
  refine (FieldSum.onehot_sum (fun j => X0 m c t (ix2 r (headPos j)) * X0 m c t (ix2 r (headPos j))) (fun j => X2 m c t (ix2 j e)) e
    (fun j => Arrays.onehot_at m c t j e)).trans ?_
  exact Finset.sum_congr rfl fun f _ => congrArg₂ (· * ·) ((deep_at m c t r _).trans (deep_emb m c _ f e)) ((deep_at m c t r _).trans (deep_emb m c _ f e))

/-- The linear terms' sum of row r of block t is the reference's of row 2048·t + r. -/
theorem sparse_row (c : Dev nD) (t : Fin cfg0.N) (r : Fin 2048) :
    k0_pay3 (F := Ideal) (iblk m c 1 t) (ix2 r (0 : Fin 1))
      = Cert.ReferenceIdeal.Read.val_main_v19 (F := Ideal) (m ((c : Thread nD τ).loc main_arg0)) (m ((c : Thread nD τ).loc main_arg3)) (ix2 (bRow t r) (0 : Fin 1)) := by
  rw [Cert.KernelIdeal.Row.sparse_at, Cert.ReferenceIdeal.Row.sparse_at]
  exact Finset.sum_congr rfl fun f _ => lin_at m c t r f

/-- The dense features' linear term. -/
theorem dense_row (c : Dev nD) (t : Fin cfg0.N) (r : Fin 2048) :
    k0_pay4 (F := Ideal) (iblk m c 0 t) (iblk m c 3 t) (iblk m c 4 t) (ix2 r (0 : Fin 1))
      = Cert.ReferenceIdeal.Read.val_main_v24 (F := Ideal) (m ((c : Thread nD τ).loc main_arg1)) (m ((c : Thread nD τ).loc main_arg4)) (m ((c : Thread nD τ).loc main_arg5)) (ix2 (bRow t r) (0 : Fin 1)) := by
  rw [Cert.KernelIdeal.Row.dense_at, Cert.ReferenceIdeal.Row.dense_at]
  exact congrArg₂ (· + ·) (Finset.sum_congr rfl fun d _ => congrArg₂ (· * ·) ((deep_at m c t r _).trans (deep_dense m c _ d)) (Arrays.ldw_at m c t d))
    (congrFun (Arrays.row_w4 m c t) 0)

/-- The second-order interaction term. -/
theorem fm_row (c : Dev nD) (t : Fin cfg0.N) (r : Fin 2048) :
    k0_pay5 (F := Ideal) (iblk m c 0 t) (iblk m c 2 t) (iblk m c 2 t) (ix2 r (0 : Fin 1))
      = Cert.ReferenceIdeal.Read.val_main_v33 (F := Ideal) (m ((c : Thread nD τ).loc main_arg0)) (m ((c : Thread nD τ).loc main_arg2)) (ix2 (bRow t r) (0 : Fin 1)) := by
  rw [Cert.KernelIdeal.Row.fm_at, Cert.ReferenceIdeal.Row.fm_at]
  exact congrArg₂ (· * ·) rfl (Finset.sum_congr rfl fun e _ => congrArg₂ (· - ·) (congrArg₂ (· * ·) (fm_sum m c t r e) (fm_sum m c t r e)) (fm_sq m c t r e))

set_option maxHeartbeats 2000000 in
/-- The tower: a row of it reads only that row of the features. -/
theorem tower_row (c : Dev nD) (t : Fin cfg0.N) (r : Fin 2048) :
    k0_pay10 (F := Ideal) (k0_pay9 (k0_pay6 (iblk m c 0 t)) (k0_pay7 (iblk m c 5 t)) (k0_pay8 (iblk m c 6 t)) (iblk m c 7 t) (iblk m c 8 t) (iblk m c 9 t)
        (iblk m c 10 t) (iblk m c 11 t) (iblk m c 12 t) (iblk m c 13 t) (iblk m c 14 t)) (iblk m c 15 t) (iblk m c 16 t) (iblk m c 17 t) (iblk m c 18 t)
        (iblk m c 19 t) (iblk m c 20 t) (iblk m c 21 t) (iblk m c 22 t) (ix2 r (0 : Fin 1))
      = Cert.ReferenceIdeal.Read.val_main_v97 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (ix2 (bRow t r) (0 : Fin 1)) := by
  rw [Cert.KernelIdeal.Row.tower_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t),
    Cert.ReferenceIdeal.Row.tower_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)),
    Arrays.row_w5 m c t, Arrays.row_w6 m c t, Arrays.row_w7 m c t, Arrays.row_w8 m c t, Arrays.row_w10 m c t, Arrays.row_w11 m c t, Arrays.row_w12 m c t, Arrays.row_w13 m c t, Arrays.row_w14 m c t, Arrays.row_w16 m c t, Arrays.row_w17 m c t, Arrays.row_w18 m c t, Arrays.row_w19 m c t, Arrays.row_w20 m c t, Arrays.row_w22 m c t, Blocks.blk9 m c t, Arrays.w1_eq, Blocks.blk15 m c t, Arrays.w2_eq, Blocks.blk21 m c t, Arrays.w3_eq]
  exact tower_congr (fun k => deep_at m c t r k)

set_option maxHeartbeats 2000000 in
/-- WHAT POINT t WRITES BACK is block t of the reference's result. -/
theorem flushed_eq (c : Dev nD) (t : Fin cfg0.N) :
    (dats m 0 c).flushed 24 t = ((cfg0.win 24).blk t).view.read (Elt Ideal) (G m c) := by
  show (cfg0.win 24).cut (grid0.coords t) ((dats m 0 c).after 24 t) = _
  rw [after0_24]
  unfold out0_24
  rw [View.canon_unit_zero hz]
  simp only [View.ld_unit_zero (S := S2048x429) hz, View.ld_unit_zero (S := S2048x26) hz, View.ld_unit_zero (S := S416x16) hz, View.ld_unit_zero (S := S13x1) hz, View.ld_unit_zero (S := S1x1) hz, View.ld_unit_zero (S := S1x429) hz, View.ld_unit_zero (S := S429x128) hz, View.ld_unit_zero (S := S1x128) hz, View.ld_unit_zero (S := S128x64) hz, View.ld_unit_zero (S := S1x64) hz, View.ld_unit_zero (S := S64x1) hz]
  funext x
  obtain ⟨r, u, rfl⟩ : ∃ (r : Fin 2048) (u : Fin 1), x = ix2 r u := ⟨x 0, x 1, eq_ix2 x⟩
  obtain rfl : u = 0 := Subsingleton.elim _ _
  obtain ⟨e0, e1, e2, e3, e4, e5⟩ := Blocks.idx_rows t
  have hemb : ((cfg0.win 24).blk t).view.emb (ix2 r (0 : Fin 1)) = (ix2 (bRow t r) (0 : Fin 1) : S16384x1.Idx) :=
    funext fun a => Fin.ext (by
      match a with
      | ⟨0, _⟩ => show win0_24.index t (0 : Fin 2) * 2048 + 1 * r.val = 2048 * t.val + r.val; rw [e4]; omega
      | ⟨1, _⟩ => show win0_24.index t (1 : Fin 2) * 1 + 1 * 0 = 0; rw [e5])
  show k0_pay1 (F := Ideal) _ _ _ _ _ (ix2 r (0 : Fin 1)) = G m c (((cfg0.win 24).blk t).view.emb (ix2 r (0 : Fin 1)))
  rw [hemb]
  unfold G
  rw [Cert.KernelIdeal.Row.row_eq, Cert.ReferenceIdeal.Row.row_eq]
  exact congrArg₂ (· + ·) (congrArg₂ (· + ·) (congrArg₂ (· + ·) (congrArg₂ (· + ·) (congrFun (Arrays.row_w23 m c t) 0) (sparse_row m c t r)) (dense_row m c t r))
    (fm_row m c t r)) (tower_row m c t r)

/-- An index of the result array is in point t's block iff its row is one of the block's 2048. -/
theorem mem_blk (t : Fin cfg0.N) (i : S16384x1.Idx) :
    i ∈ ((cfg0.win 24).blk t).view.set ↔ ∀ a : Fin 2, win0_24.index t a * S2048x1.size a ≤ (i a).val ∧ (i a).val < win0_24.index t a * S2048x1.size a + S2048x1.size a := by
  show i ∈ ((View.whole main_v51).slice (win0_24.rect t)).set ↔ _
  rw [View.set_slice_whole, Rect.mem_set_unit]
  exact Iff.rfl

/-- The eight blocks cover the result array: row i is in block i / 2048. -/
theorem cover (i : S16384x1.Idx) : ∃ t : Fin cfg0.N, (cfg0.win 24).flush t = true ∧ i ∈ ((cfg0.win 24).blk t).view.set := by
  have hi0 : (i 0).val < 16384 := (i 0).isLt
  have hi1 : (i 1).val < 1 := (i 1).isLt
  have ht : (i 0).val / 2048 < cfg0.N := by rw [hN]; omega
  obtain ⟨e0, e1, e2, e3, e4, e5⟩ := Blocks.idx_rows ⟨(i 0).val / 2048, ht⟩
  refine ⟨⟨(i 0).val / 2048, ht⟩, flush0_24 _, ?_⟩
  rw [mem_blk]
  intro a
  match a with
  | ⟨0, _⟩ =>
    show win0_24.index ⟨(i 0).val / 2048, ht⟩ (0 : Fin 2) * 2048 ≤ (i 0).val ∧ (i 0).val < win0_24.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win0_24.index ⟨(i 0).val / 2048, ht⟩ (1 : Fin 2) * 1 ≤ (i 1).val ∧ (i 1).val < win0_24.index ⟨(i 0).val / 2048, ht⟩ (1 : Fin 2) * 1 + 1
    rw [e5]
    omega

/-- THE RESULT ARRAY of the region after the run. -/
theorem final (c : Dev nD) : (dats m 0 c).arrAt 24 cfg0.N = G m c :=
  (dats m 0 c).arrAt_eq_of_cover 24 (G m c) (fun t _ => flushed_eq m c t) cover

/-- The program's result: its last reshape of the region's result array is the reference's last reshape. -/
theorem result_eq (c : Dev nD) :
    Pipeline.afterTail₀ cfgs (dats m) 0 (V0 m) [hostOps1] c main_v52
      = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  unfold Pipeline.afterTail₀
  show StableHlo.after hostOps1 _ (Proc.devRef .tc main_v52) = _
  after_results
  have hW := (Pipeline.withArrays_arr spec0 launch0.win.arr_inj c (V0 m c) (fun w => (dats m 0 c).arrAt w cfg0.N) 24).trans (final m c)
  exact congrArg (fun A : S16384x1.Idx → EReal => shapeCast S16384 A shapeCasts_S16384x1_S16384) hW

/-- The run, read: the result at the reference's function of the arguments, the arguments unchanged. -/
theorem run : θ_run defs (onTc (τ := τ) (main (F := Ideal))) ⟨m, fun _ => 0, ρ⟩ fun r => ∀ c : Dev nD,
      r.2.mem ((c.tc : Thread nD τ).loc main_v52) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun r h c => ⟨((h c).2 main_v52 (Pipeline.mem_restRefs_of main_v52 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c))⟩)
    (run_main m ρ)

end Cert.KernelIdeal.Bridge

end
-- ==== Proof.lean ====
/- The proof of `Cert.Claim` (proofs.«136922_j82471962018408_2_alg».proof.Defs).

   The program is a click-through-rate model: per-feature embedding and linear tables gathered at integer ids, a
   linear part, a second-order interaction over the 26 embedding rows, and a three-layer tower with fixed-statistics
   normalisations.  The kernel tiles the batch in eight blocks of 2048 rows; inside a block it takes the sum over the
   fields through a product with a 0/1 matrix where the reference sums along an axis.  On the extended reals the two
   are the same function of the arguments, row by row (Proof/Bridge.lean); the three frames are the programs' runs with
   the results dropped, and no idealisation rule was applied, so `preserves` is trivial. -/
import proofs.«136922_j82471962018408_2_alg».proof.Defs
import proofs.«136922_j82471962018408_2_alg».proof.Proof.Gen.Kernel
import proofs.«136922_j82471962018408_2_alg».proof.Proof.Gen.Kernel.Skeleton
import proofs.«136922_j82471962018408_2_alg».proof.Proof.Gen.Kernel.Launch
import proofs.«136922_j82471962018408_2_alg».proof.Proof.Gen.Kernel.Points
import proofs.«136922_j82471962018408_2_alg».proof.Proof.FrameKernel
import proofs.«136922_j82471962018408_2_alg».proof.Proof.Gen.KernelIdeal
import proofs.«136922_j82471962018408_2_alg».proof.Proof.Gen.KernelIdeal.Skeleton
import proofs.«136922_j82471962018408_2_alg».proof.Proof.Gen.KernelIdeal.Launch
import proofs.«136922_j82471962018408_2_alg».proof.Proof.Gen.KernelIdeal.Points
import proofs.«136922_j82471962018408_2_alg».proof.Proof.FrameKernelIdeal
import proofs.«136922_j82471962018408_2_alg».proof.Proof.Gen.ReferenceIdeal
import proofs.«136922_j82471962018408_2_alg».proof.Proof.Gen.Pre_finite_inputs
import proofs.«136922_j82471962018408_2_alg».proof.Proof.Gen.ReferenceIdeal.Read
import proofs.«136922_j82471962018408_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reference's function of the arguments, and the arguments agree. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24⟩ := hagree c
  rw [Cert.ReferenceIdeal.Read.val_main_v104_eq, h0, h1, h2, h3, h4, h5, h6, h7, h8, h9, h10, h11, h12, h13, h14, h15, h16, h17, h18, h19, h20, h21, h22, h23, h24]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
